-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x64 : Shape := ⟨3, ![256, 512, 64]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S256x512x64 : S_.BroadcastsInDim S256x512x64 (![] : Fin 0 → Fin S256x512x64.rank)
  reducesTo_S256x512x64_S_d0_1_2 : S256x512x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part3 {F : FTy → Type} [FloatOps F] (main_arg11 : FVec F S2x128 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  main_v58

def fn_part2 {F : FTy → Type} [FloatOps F] (main_arg7 : FVec F S2x128 .f32) (main_arg8 : FVec F S2x128 .f32) (main_arg9 : FVec F S2x128 .f32) (main_arg10 : FVec F S2x128 .f32) (main_arg11 : FVec F S2x128 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_v48 main_v49 main_v50

def fn_part1 {F : FTy → Type} [FloatOps F] (main_arg4 : FVec F S2x128x128 .f32) (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) (main_arg11 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x512x64 .f32) (main_arg1 : FVec F S64x128 .f32) (main_arg2 : FVec F S128 .f32) (main_arg3 : FVec F S2x128x128 .f32) (main_arg4 : FVec F S2x128x128 .f32) (main_arg5 : FVec F S2x128x128 .f32) (main_arg6 : FVec F S2x128 .f32) (main_arg7 : FVec F S2x128 .f32) (main_arg8 : FVec F S2x128 .f32) (main_arg9 : FVec F S2x128 .f32) (main_arg10 : FVec F S2x128 .f32) (main_arg11 : FVec F S2x128 .f32) : IVec S_ 1 :=
  let main_v0 : FVec F S256x512x64 .f32 := Host.absf main_arg0
  let main_cst : FVec F S_ .f32 := constant S_ .f32 0x7F800000#32
  let main_v1 : FVec F S256x512x64 .f32 := broadcastInDim S256x512x64 ![] bcast_S_S256x512x64 main_cst
  let main_v2 : IVec S256x512x64 1 := cmpf .olt main_v0 main_v1
  let main_c : IVec S_ 1 := constantI S_ 1 1#1
  let main_v3 : IVec S_ 1 := (fun x v => Host.reduce IntOp.andi x v reducesTo_S256x512x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_arg9 main_arg10 main_arg11 main_v13 main_v16
-- ==== Kernel.lean ====
abbrev S256x512x64 : Shape := ⟨3, ![256, 512, 64]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S2x128x384 : Shape := ⟨3, ![2, 128, 384]⟩
abbrev S2x384 : Shape := ⟨2, ![2, 384]⟩
abbrev S256x128 : Shape := ⟨2, ![256, 128]⟩
abbrev S16x512x64 : Shape := ⟨3, ![16, 512, 64]⟩
abbrev S16x128 : Shape := ⟨2, ![16, 128]⟩
abbrev S8192x128 : Shape := ⟨2, ![8192, 128]⟩
abbrev S8192x64 : Shape := ⟨2, ![8192, 64]⟩
abbrev S1x128 : Shape := ⟨2, ![1, 128]⟩
abbrev S1x128x384 : Shape := ⟨3, ![1, 128, 384]⟩
abbrev S128x384 : Shape := ⟨2, ![128, 384]⟩
abbrev S1x384 : Shape := ⟨2, ![1, 384]⟩
abbrev S384 : Shape := ⟨1, ![384]⟩
abbrev S2048x128 : Shape := ⟨2, ![2048, 128]⟩
abbrev S2048x384 : Shape := ⟨2, ![2048, 384]⟩
abbrev S16x512x128 : Shape := ⟨3, ![16, 512, 128]⟩

abbrev nBuf : Space → Nat
  | .hbm => 20
  | .vmem => 9
  | .smem => 0
  | _ => 0

abbrev bufTy : (tb : Table) → Fin (tcTables nBuf tb) → BufTy
  | .hbm, ⟨0, _⟩ => ⟨S256x512x64, .f32⟩
  | .hbm, ⟨1, _⟩ => ⟨S64x128, .f32⟩
  | .hbm, ⟨2, _⟩ => ⟨S128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S2x128, .f32⟩
  | .hbm, ⟨12, _⟩ => ⟨S64x128, .bf16⟩
  | .hbm, ⟨13, _⟩ => ⟨S2x128x384, .f32⟩
  | .hbm, ⟨14, _⟩ => ⟨S2x128x384, .bf16⟩
  | .hbm, ⟨15, _⟩ => ⟨S2x128, .f32⟩
  | .hbm, ⟨16, _⟩ => ⟨S2x128, .f32⟩
  | .hbm, ⟨17, _⟩ => ⟨S2x128, .f32⟩
  | .hbm, ⟨18, _⟩ => ⟨S2x384, .f32⟩
  | .hbm, ⟨19, _⟩ => ⟨S256x128, .f32⟩
  | .local _ .vmem, ⟨0, _⟩ => ⟨S16x512x64, .f32⟩
  | .local _ .vmem, ⟨1, _⟩ => ⟨S16x512x64, .f32⟩
  | .local _ .vmem, ⟨2, _⟩ => ⟨S64x128, .bf16⟩
  | .local _ .vmem, ⟨3, _⟩ => ⟨S128, .f32⟩
  | .local _ .vmem, ⟨4, _⟩ => ⟨S2x128x384, .bf16⟩
  | .local _ .vmem, ⟨5, _⟩ => ⟨S2x384, .f32⟩
  | .local _ .vmem, ⟨6, _⟩ => ⟨S16x128, .f32⟩
  | .local _ .vmem, ⟨7, _⟩ => ⟨S16x128, .f32⟩
  | .local _ .vmem, ⟨8, _⟩ => ⟨S8192x128, .f32⟩
  | _, _ => ⟨S256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v18 : BitVec 32 := Scalar.addi c0_i32 c4_i32
  let c1_i32 : BitVec 32 := 1#32
  ⟨c0_i32, v18, c1_i32⟩
def k0_mult1 (k0_t1 : Fin k0_t1_loop.trips) : BitVec 32 :=
  let c0_i32_28 : BitVec 32 := 0#32
  let c0_i32 : BitVec 32 := 0#32
  let c1_i32 : BitVec 32 := 1#32
  let arg8 : BitVec 32 := Scf.iv c0_i32 c1_i32 k0_t1
  let c1_i32_27 : BitVec 32 := 1#32
  let v31 : BitVec 32 := Scalar.muli arg8 c1_i32_27
  let v32 : BitVec 32 := Scalar.addi c0_i32_28 v31
  let c2048_i32 : BitVec 32 := 2048#32
  let v33 : BitVec 32 := Scalar.muli v32 c2048_i32
  v33
def k0_off1 (k0_t1 : Fin k0_t1_loop.trips) : Fin 2 → Nat :=
  let c0_i32_28 : BitVec 32 := 0#32
  let c0_i32 : BitVec 32 := 0#32
  let c1_i32 : BitVec 32 := 1#32
  let arg8 : BitVec 32 := Scf.iv c0_i32 c1_i32 k0_t1
  let c1_i32_27 : BitVec 32 := 1#32
  let v31 : BitVec 32 := Scalar.muli arg8 c1_i32_27
  let v32 : BitVec 32 := Scalar.addi c0_i32_28 v31
  let c2048_i32 : BitVec 32 := 2048#32
  let v33 : BitVec 32 := Scalar.muli v32 c2048_i32
  let v34 : BitVec 32 := v33
  let v35 : Index := Scalar.indexCast v34
  let c0_29 : Index := 0#32
  ![v35.toNat, 0]
@[reducible] def k0_t2_loop : Scf.Loop 32 :=
  let c0_i32_17 : BitVec 32 := 0#32
  let c4_i32_18 : BitVec 32 := 4#32
  let v24 : BitVec 32 := Scalar.addi c0_i32_17 c4_i32_18
  let c1_i32_19 : BitVec 32 := 1#32
  ⟨c0_i32_17, v24, c1_i32_19⟩
def k0_mult2 (k0_t2 : Fin k0_t2_loop.trips) : BitVec 32 :=
  let c0_i32_28 : BitVec 32 := 0#32
  let c0_i32_17 : BitVec 32 := 0#32
  let c1_i32_19 : BitVec 32 := 1#32
  let arg8 : BitVec 32 := Scf.iv c0_i32_17 c1_i32_19 k0_t2
  let c1_i32_27 : BitVec 32 := 1#32
  let v31 : BitVec 32 := Scalar.muli arg8 c1_i32_27
  let v32 : BitVec 32 := Scalar.addi c0_i32_28 v31
  let c2048_i32 : BitVec 32 := 2048#32
  let v33 : BitVec 32 := Scalar.muli v32 c2048_i32
  v33
def k0_off2 (k0_t2 : Fin k0_t2_loop.trips) : Fin 2 → Nat :=
  let c0_i32_28 : BitVec 32 := 0#32
  let c0_i32_17 : BitVec 32 := 0#32
  let c1_i32_19 : BitVec 32 := 1#32
  let arg8 : BitVec 32 := Scf.iv c0_i32_17 c1_i32_19 k0_t2
  let c1_i32_27 : BitVec 32 := 1#32
  let v31 : BitVec 32 := Scalar.muli arg8 c1_i32_27
  let v32 : BitVec 32 := Scalar.addi c0_i32_28 v31
  let c2048_i32 : BitVec 32 := 2048#32
  let v33 : BitVec 32 := Scalar.muli v32 c2048_i32
  let v34 : BitVec 32 := v33
  let v35 : Index := Scalar.indexCast v34
  let c0_29 : Index := 0#32
  ![v35.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  concatenates_S2x128x128_S2x128x128_S2x128x128_S2x128x384_d2 : Shape.Concatenates [S2x128x128, S2x128x128, S2x128x128] S2x128x384 2
  concatenates_S2x128_S2x128_S2x128_S2x384_d1 : Shape.Concatenates [S2x128, S2x128, S2x128] S2x384 1
  inb_S16x512x64_S16x512x64_0_0_0 : ∀ a, (![0, 0, 0] : Fin 3 → Nat) a + S16x512x64.size a ≤ S16x512x64.size a
  h_S16x512x64 : 0 < S16x512x64.numel
  shapeCasts_S16x512x64_S8192x64 : S16x512x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S2x128x384_S1x128x384_0_0_0 : ∀ a, (![0, 0, 0] : Fin 3 → Nat) a + S1x128x384.size a ≤ S2x128x384.size a
  h_S1x128x384 : 0 < S1x128x384.numel
  shapeCasts_S1x128x384_S128x384 : S1x128x384.ShapeCasts S128x384
  inb_S2x384_S1x384_0_0 : ∀ a, (![0, 0] : Fin 2 → Nat) a + S1x384.size a ≤ S2x384.size a
  h_S1x384 : 0 < S1x384.numel
  shapeCasts_S1x384_S384 : S1x384.ShapeCasts S384
  shapeCasts_S384_S1x384 : S384.ShapeCasts S1x384
  h_S2048x128 : 0 < S2048x128.numel
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  shapeCasts_S2048x128_S2048x128 : S2048x128.ShapeCasts S2048x128
  inb_S2x128x384_S1x128x384_1_0_0 : ∀ a, (![1, 0, 0] : Fin 3 → Nat) a + S1x128x384.size a ≤ S2x128x384.size a
  inb_S2x384_S1x384_1_0 : ∀ a, (![1, 0] : Fin 2 → Nat) a + S1x384.size a ≤ S2x384.size a
  shapeCasts_S8192x128_S16x512x128 : S8192x128.ShapeCasts S16x512x128
  reduces_S16x512x128_S16x128 : S16x512x128.Reduces [1] S16x128
  inb_S16x128_S16x128_0_0 : ∀ a, (![0, 0] : Fin 2 → Nat) a + S16x128.size a ≤ S16x128.size a
  h_S16x128 : 0 < S16x128.numel
  dot_S8192x64_S64x128_S8192x128_1_0_0_1_n_n_wf : DotDims.WF S8192x64 S64x128 S8192x128 [1] [0] [0] [1] [] []
  dot_S2048x128_S128x384_S2048x384_1_0_0_1_n_n_wf : DotDims.WF S2048x128 S128x384 S2048x384 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S8192x128.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x64.size a ≤ S256x512x64.size a
  hwx0_0 : ∀ i : grid0.Coords, EltTy.bits .f32 = 32 ∨ (Rect.block (s := S256x512x64) S16x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128x384.size a ≤ S2x128x384.size a
  hwx0_3 : ∀ i : grid0.Coords, EltTy.bits .bf16 = 32 ∨ (Rect.block (s := S2x128x384) S2x128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x384.size a ≤ S2x384.size a
  hwx0_4 : ∀ i : grid0.Coords, EltTy.bits .f32 = 32 ∨ (Rect.block (s := S2x384) S2x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S256x128.size a
  hwx0_5 : ∀ i : grid0.Coords, EltTy.bits .f32 = 32 ∨ (Rect.block (s := S256x128) S16x128.size (cc0_transform_5 i) (hinb0_5 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_arg0) S16x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x512x64 : Shape := ⟨3, ![256, 512, 64]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S256x512x128 : Shape := ⟨3, ![256, 512, 128]⟩
abbrev S1x1x128 : Shape := ⟨3, ![1, 1, 128]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S256x128 : Shape := ⟨2, ![256, 128]⟩

abbrev nBuf : Space → Nat
  | .hbm => 139
  | .vmem => 0
  | .smem => 0
  | _ => 0

abbrev hbmTy0_0 (i : Nat) : BufTy := match i % 128 with
  | 0 => ⟨S256x512x64, .f32⟩
  | 1 => ⟨S64x128, .f32⟩
  | 2 => ⟨S128, .f32⟩
  | 3 => ⟨S2x128x128, .f32⟩
  | 4 => ⟨S2x128x128, .f32⟩
  | 5 => ⟨S2x128x128, .f32⟩
  | 6 => ⟨S2x128, .f32⟩
  | 7 => ⟨S2x128, .f32⟩
  | 8 => ⟨S2x128, .f32⟩
  | 9 => ⟨S2x128, .f32⟩
  | 10 => ⟨S2x128, .f32⟩
  | 11 => ⟨S2x128, .f32⟩
  | 12 => ⟨S256x512x128, .f32⟩
  | 13 => ⟨S1x1x128, .f32⟩
  | 14 => ⟨S256x512x128, .f32⟩
  | 15 => ⟨S256x512x128, .f32⟩
  | 16 => ⟨S1x128x128, .f32⟩
  | 17 => ⟨S128x128, .f32⟩
  | 18 => ⟨S256x512x128, .f32⟩
  | 19 => ⟨S1x128, .f32⟩
  | 20 => ⟨S128, .f32⟩
  | 21 => ⟨S1x1x128, .f32⟩
  | 22 => ⟨S256x512x128, .f32⟩
  | 23 => ⟨S256x512x128, .f32⟩
  | 24 => ⟨S1x128, .f32⟩
  | 25 => ⟨S128, .f32⟩
  | 26 => ⟨S1x1x128, .f32⟩
  | 27 => ⟨S256x512x128, .f32⟩
  | 28 => ⟨S256x512x128, .f32⟩
  | 29 => ⟨S256x512x128, .f32⟩
  | 30 => ⟨S256x512x128, .f32⟩
  | 31 => ⟨S_, .f32⟩
  | 32 => ⟨S256x512x128, .f32⟩
  | 33 => ⟨S256x512x128, .f32⟩
  | 34 => ⟨S_, .f32⟩
  | 35 => ⟨S256x512x128, .f32⟩
  | 36 => ⟨S256x512x128, .f32⟩
  | 37 => ⟨S1x128x128, .f32⟩
  | 38 => ⟨S128x128, .f32⟩
  | 39 => ⟨S256x512x128, .f32⟩
  | 40 => ⟨S1x128, .f32⟩
  | 41 => ⟨S128, .f32⟩
  | 42 => ⟨S1x1x128, .f32⟩
  | 43 => ⟨S256x512x128, .f32⟩
  | 44 => ⟨S256x512x128, .f32⟩
  | 45 => ⟨S1x128, .f32⟩
  | 46 => ⟨S128, .f32⟩
  | 47 => ⟨S1x1x128, .f32⟩
  | 48 => ⟨S256x512x128, .f32⟩
  | 49 => ⟨S256x512x128, .f32⟩
  | 50 => ⟨S256x512x128, .f32⟩
  | 51 => ⟨S256x512x128, .f32⟩
  | 52 => ⟨S_, .f32⟩
  | 53 => ⟨S256x512x128, .f32⟩
  | 54 => ⟨S256x512x128, .f32⟩
  | 55 => ⟨S_, .f32⟩
  | 56 => ⟨S256x512x128, .f32⟩
  | 57 => ⟨S256x512x128, .f32⟩
  | 58 => ⟨S1x128x128, .f32⟩
  | 59 => ⟨S128x128, .f32⟩
  | 60 => ⟨S256x512x128, .f32⟩
  | 61 => ⟨S1x128, .f32⟩
  | 62 => ⟨S128, .f32⟩
  | 63 => ⟨S1x1x128, .f32⟩
  | 64 => ⟨S256x512x128, .f32⟩
  | 65 => ⟨S256x512x128, .f32⟩
  | 66 => ⟨S1x128, .f32⟩
  | 67 => ⟨S128, .f32⟩
  | 68 => ⟨S1x1x128, .f32⟩
  | 69 => ⟨S256x512x128, .f32⟩
  | 70 => ⟨S256x512x128, .f32⟩
  | 71 => ⟨S256x512x128, .f32⟩
  | 72 => ⟨S256x512x128, .f32⟩
  | 73 => ⟨S256x512x128, .f32⟩
  | 74 => ⟨S256x512x128, .f32⟩
  | 75 => ⟨S1x128x128, .f32⟩
  | 76 => ⟨S128x128, .f32⟩
  | 77 => ⟨S256x512x128, .f32⟩
  | 78 => ⟨S1x128, .f32⟩
  | 79 => ⟨S128, .f32⟩
  | 80 => ⟨S1x1x128, .f32⟩
  | 81 => ⟨S256x512x128, .f32⟩
  | 82 => ⟨S256x512x128, .f32⟩
  | 83 => ⟨S1x128, .f32⟩
  | 84 => ⟨S128, .f32⟩
  | 85 => ⟨S1x1x128, .f32⟩
  | 86 => ⟨S256x512x128, .f32⟩
  | 87 => ⟨S256x512x128, .f32⟩
  | 88 => ⟨S256x512x128, .f32⟩
  | 89 => ⟨S256x512x128, .f32⟩
  | 90 => ⟨S_, .f32⟩
  | 91 => ⟨S256x512x128, .f32⟩
  | 92 => ⟨S256x512x128, .f32⟩
  | 93 => ⟨S_, .f32⟩
  | 94 => ⟨S256x512x128, .f32⟩
  | 95 => ⟨S256x512x128, .f32⟩
  | 96 => ⟨S1x128x128, .f32⟩
  | 97 => ⟨S128x128, .f32⟩
  | 98 => ⟨S256x512x128, .f32⟩
  | 99 => ⟨S1x128, .f32⟩
  | 100 => ⟨S128, .f32⟩
  | 101 => ⟨S1x1x128, .f32⟩
  | 102 => ⟨S256x512x128, .f32⟩
  | 103 => ⟨S256x512x128, .f32⟩
  | 104 => ⟨S1x128, .f32⟩
  | 105 => ⟨S128, .f32⟩
  | 106 => ⟨S1x1x128, .f32⟩
  | 107 => ⟨S256x512x128, .f32⟩
  | 108 => ⟨S256x512x128, .f32⟩
  | 109 => ⟨S256x512x128, .f32⟩
  | 110 => ⟨S256x512x128, .f32⟩
  | 111 => ⟨S_, .f32⟩
  | 112 => ⟨S256x512x128, .f32⟩
  | 113 => ⟨S256x512x128, .f32⟩
  | 114 => ⟨S_, .f32⟩
  | 115 => ⟨S256x512x128, .f32⟩
  | 116 => ⟨S256x512x128, .f32⟩
  | 117 => ⟨S1x128x128, .f32⟩
  | 118 => ⟨S128x128, .f32⟩
  | 119 => ⟨S256x512x128, .f32⟩
  | 120 => ⟨S1x128, .f32⟩
  | 121 => ⟨S128, .f32⟩
  | 122 => ⟨S1x1x128, .f32⟩
  | 123 => ⟨S256x512x128, .f32⟩
  | 124 => ⟨S256x512x128, .f32⟩
  | 125 => ⟨S1x128, .f32⟩
  | 126 => ⟨S128, .f32⟩
  | 127 => ⟨S1x1x128, .f32⟩
  | _ => ⟨S256x512x64, .f32⟩

abbrev hbmTy0_1 (i : Nat) : BufTy := match i % 128 with
  | 0 => ⟨S256x512x128, .f32⟩
  | 1 => ⟨S256x512x128, .f32⟩
  | 2 => ⟨S256x512x128, .f32⟩
  | 3 => ⟨S256x512x128, .f32⟩
  | 4 => ⟨S256x512x128, .f32⟩
  | 5 => ⟨S256x512x128, .f32⟩
  | 6 => ⟨S_, .f32⟩
  | 7 => ⟨S256x128, .f32⟩
  | 8 => ⟨S_, .f32⟩
  | 9 => ⟨S256x128, .f32⟩
  | 10 => ⟨S256x128, .f32⟩
  | _ => ⟨S256x512x64, .f32⟩

abbrev hbmTy (i : Nat) : BufTy := match i / 128 with
  | 0 => hbmTy0_0 i
  | 1 => hbmTy0_1 i
  | _ => ⟨S256x512x64, .f32⟩

abbrev bufTy : (tb : Table) → Fin (tcTables nBuf tb) → BufTy
  | .hbm, ⟨i, _⟩ => hbmTy i
  | _, _ => ⟨S256x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_3 : Ref sig .tc := ⟨.hbm, 90, rfl⟩
abbrev main_v74 : Ref sig .tc := ⟨.hbm, 91, rfl⟩
abbrev main_v75 : Ref sig .tc := ⟨.hbm, 92, rfl⟩
abbrev main_cst_4 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_5 : Ref sig .tc := ⟨.hbm, 111, rfl⟩
abbrev main_v93 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_7 : Ref sig .tc := ⟨.hbm, 134, rfl⟩
abbrev main_v114 : Ref sig .tc := ⟨.hbm, 135, rfl⟩
abbrev main_cst_8 : Ref sig .tc := ⟨.hbm, 136, rfl⟩
abbrev main_v115 : Ref sig .tc := ⟨.hbm, 137, rfl⟩
abbrev main_v116 : Ref sig .tc := ⟨.hbm, 138, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S256x512x128_0_1_2 : S1x1x128.BroadcastsInDim S256x512x128 (![0, 1, 2] : Fin 3 → Fin S256x512x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S256x512x128 : S_.BroadcastsInDim S256x512x128 (![] : Fin 0 → Fin S256x512x128.rank)
  slices_S2x128x128_S1x128x128_1_0_0 : S2x128x128.Slices ![1, 0, 0] S1x128x128
  slices_S2x128_S1x128_1_0 : S2x128.Slices ![1, 0] S1x128
  reducesTo_S256x512x128_S256x128_d1 : S256x512x128.ReducesTo [1] S256x128
  h_S_ : 0 < S_.numel
  bcast_S_S256x128 : S_.BroadcastsInDim S256x128 (![] : Fin 0 → Fin S256x128.rank)
  dot_S256x512x64_S64x128_S256x512x128_2_0_01_1_n_n_wf : DotDims.WF S256x512x64 S64x128 S256x512x128 [2] [0] [0, 1] [1] [] []
  dot_S256x512x128_S128x128_S256x512x128_2_0_01_1_n_n_wf : DotDims.WF S256x512x128 S128x128 S256x512x128 [2] [0] [0, 1] [1] [] []

variable [Facts₀]

def dot_S256x512x64_S64x128_S256x512x128_2_0_01_1_n_n : DotDims S256x512x64 S64x128 S256x512x128 where
  lhsContracting := [2]
  rhsContracting := [0]
  lhsNonContracting := [0, 1]
  rhsNonContracting := [1]
  lhsBatch := []
  rhsBatch := []
  wf := dot_S256x512x64_S64x128_S256x512x128_2_0_01_1_n_n_wf
def dot_S256x512x128_S128x128_S256x512x128_2_0_01_1_n_n : DotDims S256x512x128 S128x128 S256x512x128 where
  lhsContracting := [2]
  rhsContracting := [0]
  lhsNonContracting := [0, 1]
  rhsNonContracting := [1]
  lhsBatch := []
  rhsBatch := []
  wf := dot_S256x512x128_S128x128_S256x512x128_2_0_01_1_n_n_wf

class Facts : Prop extends Facts₀ where

variable [Facts]
-- ==== Proof.BitsKit.lean ====
/-
  The launch side of `Kernel`'s frame, stated once for any float instance: the buffers' contents when the one
  region is entered (the seven host lines before it applied to the launch memory: the two casts, the two
  concatenations and the three bias sums), that none of those lines writes an argument array, each window's block
  at a grid point read off those contents, that an input window's staging buffer holds its block at every point
  whether or not the pipeline fetched it there, and the frame claim's post read off a run that ends in the
  pipeline library's post.
-/
import proofs.«111409_j34626026341055_2_alg».proof.Proof.Gen.Kernel.Launch
import proofs.«111409_j34626026341055_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

variable (m : (ℓ : Loc nD τ sig) → Buf (Elt F) ℓ) (ρ : Dev nD → PrngReg)

/-! ## The program up to the region -/

/-- Core `c`'s buffers when the region is entered: the launch memory after the seven host lines. -/
abbrev V (c : Dev nD) (b : Ref sig .tc) : Buf (Elt F) ((c : Thread nD τ).loc b) := StableHlo.after hostOps0 (fun b => m (c, b)) b

/-- None of the host lines allocates. -/
theorem hostOps0_fresh : (hostOps0 : List (HloOp τ sig (Elt F))).Forall fun op => op.fresh = ∅ := by
  simp only [List.Forall]; repeat' constructor

/-- The program is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline library's -/

/-- A run that ends in the pipeline library's post, for proof data whose arrays are the region-entry contents,
    leaves every argument array as launched: a staged argument by what the library says of an input window's
    array, the others by the post's clause for the buffers no window stages; then no host line wrote it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.Kernel.Hand

end
-- ==== Proof.BitsBody.lean ====
/-
  The frame of `Kernel`, for any float instance. One grid point of the kernel: the point's block of node features is
  projected by the embedding matrix and biased into the row scratch, each of the two layers rewrites the scratch
  four bands of 2048 rows at a time (a band is read, multiplied by that layer's fused gate matrix, biased, cut into
  its input, output and candidate gates, and stored back as output gate times tanh of input gate times candidate),
  and the rows' mean over the 512 nodes of each tree is stored into the output block. The body is run symbolically
  once, at any point, through the two counted loops by their invariants; what it leaves in the output block is the
  one store the run finds, read back over arbitrary prior contents. The scratch is whole-stored before it is read,
  so nothing is carried from one point to the next: the region invariant is the pipeline library's plain one.
-/
import proofs.«111409_j34626026341055_2_alg».proof.Proof.BitsKit
import proofs.«111409_j34626026341055_2_alg».proof.Proof.Gen.Kernel.Skeleton
import proofs.«111409_j34626026341055_2_alg».proof.Proof.Gen.Kernel.Loops
import Idealize.ShloMosaic.Lib.Pipeline.Frame
import Idealize.ShloMosaic.Lib.Exec.Geometry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging memrefs -/

set_option maxHeartbeats 4000000 in
/-- What the body's one store leaves in the output block, as the list of pieces the symbolic run finds, with the
    proof that on whole memrefs — the five inputs' at their contents, the output's and the row scratch's at
    anything — the body runs to a continuation holding the inputs' as they were, the output's with that list
    written, and the scratch at some contents. The embedding store covers the scratch, so what the loops read
    does not depend on what the scratch held before. -/
noncomputable def kernelRun (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) :
    { L6 : List (View.Piece (Elt F) S16x128 .f32) //
      ∀ (E : Set ℕ) (K : PUnit → sProp 𝕄),
        iprop(owns (c : Thread nD τ) arg1 fullShare x0 ∗ owns (c : Thread nD τ) arg2 fullShare w0 ∗ owns (c : Thread nD τ) arg3 fullShare b0 ∗ owns (c : Thread nD τ) arg4 fullShare wf ∗ owns (c : Thread nD τ) arg5 fullShare bf
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare w0 ∗ owns (c : Thread nD τ) arg3 fullShare b0 ∗ owns (c : Thread nD τ) arg4 fullShare wf ∗ owns (c : Thread nD τ) arg5 fullShare bf
                ∗ (∃ f, arg6.view.loc (c : Thread nD τ) ↦[arg6.view.set]{fullShare} arg6.view.writes (Elt F) f L6)
                ∗ (∃ d, owns (c : Thread nD τ) arg7 fullShare d)) -∗ K ⟨⟩))
          ⊢ wp frame (wpE (defs₀ (F := F)) Variants.none c none) E (cc0__tree_lstm_kernel i arg1 harg1 arg2 harg2 arg3 harg3 arg4 harg4 arg5 harg5 arg6 harg6 arg7 harg7) K } := by
  refine ⟨?_, fun E K => ?run⟩
  case run =>
    simp only [cc0__tree_lstm_kernel_eq_skeleton]; unfold cc0__tree_lstm_kernel_skel
    simp only [k0_part1_eq_skeleton]; unfold k0_part1_skel
    simp only [bind_assoc]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexists _; isplitr
    swap; · iexact H7
    ipureintro; rfl

/-- One staging buffer of the output window, through which the block's contents are stated. -/
abbrev VO5 : View sig .tc .vmem S16x128 .f32 := (Memref.whole cc0_stg5_0 : Memref sig .tc .vmem S16x128 .f32).view
/-- The row scratch as the pipeline passes it. -/
abbrev scM : Memref sig .tc .vmem S8192x128 .f32 := Memref.whole cc0_scratch0
/-- Each window's current staging memref at a point, as the pipeline passes it, and its wholeness. -/
abbrev ms0_0 (t : Fin cfg0.N) : Memref sig .tc .vmem S16x512x64 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S64x128 .bf16 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S128 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S2x128x384 .bf16 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S2x384 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S16x128 .f32 := win0_5.stage (cfg0.slots t 5)
abbrev hs0_5 (t : Fin cfg0.N) : (ms0_5 t).IsWhole := Facts₀.hstage0_5 ((cfg0.slots t 5).cast Facts₀.nbuf0_5)

/-- The found store is the whole output block. -/
theorem cover5 (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) (y : S16x128.Idx) :
    ∃ pc ∈ (kernelRun c i arg1 harg1 arg2 harg2 arg3 harg3 arg4 harg4 arg5 harg5 arg6 harg6 arg7 harg7 x0 w0 b0 wf bf).1, y ∈ pc.1.set :=
  View.cover_of_tiledL (kernelRun c i arg1 harg1 arg2 harg2 arg3 harg3 arg4 harg4 arg5 harg5 arg6 harg6 arg7 harg7 x0 w0 b0 wf bf).1 S16x128.size (by sl_kernel_rfl) y

/-- What the body leaves in the output block: the found store read back over arbitrary contents. -/
def out0_5 (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) : Vec F S16x128 .f32 :=
  VO5.read (Elt F) (VO5.writes (Elt F) VO5.junk (kernelRun c i arg1 harg1 arg2 harg2 arg3 harg3 arg4 harg4 arg5 harg5 arg6 harg6 arg7 harg7 x0 w0 b0 wf bf).1)

/-- The region invariant with the row scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The pipeline's proof data -/

/-- The proof data of the one pipeline on core `c`: the arrays as the region finds them; after the body at point
    `t` each input's buffer at its block and the output's at what the body stores from those blocks; the invariant
    the library's plain one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: each input's memref holds its block, so the run applies; the invariant lends the scratch
    at anything and takes it back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA0_eq]
  iintro ⟨⟨HS, Hg⟩, Ho, ⟨%d0, H0⟩, ⟨%d1, H1⟩, ⟨%d2, H2⟩, ⟨%d3, H3⟩, ⟨%d4, H4⟩, ⟨%d5, H5⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  unfold owns out0_5; iexists _; isplitr
  swap; · iexact H5
  ipureintro; exact View.read_writes_of_cover _ _ _ _ _ (cover5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of the program terminates, and every
    final state has each array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs to the end and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Hand

end
-- ==== Proof.IdealKit.lean ====
/-
  The launch side of `KernelIdeal`'s frame, stated once for any float instance: the buffers' contents when the one
  region is entered (the seven host lines before it applied to the launch memory: the two casts, the two
  concatenations and the three bias sums), that none of those lines writes an argument array, each window's block
  at a grid point read off those contents, that an input window's staging buffer holds its block at every point
  whether or not the pipeline fetched it there, and the frame claim's post read off a run that ends in the
  pipeline library's post.
-/
import proofs.«111409_j34626026341055_2_alg».proof.Proof.Gen.KernelIdeal.Launch
import proofs.«111409_j34626026341055_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

variable (m : (ℓ : Loc nD τ sig) → Buf (Elt F) ℓ) (ρ : Dev nD → PrngReg)

/-! ## The program up to the region -/

/-- Core `c`'s buffers when the region is entered: the launch memory after the seven host lines. -/
abbrev V (c : Dev nD) (b : Ref sig .tc) : Buf (Elt F) ((c : Thread nD τ).loc b) := StableHlo.after hostOps0 (fun b => m (c, b)) b

/-- None of the host lines allocates. -/
theorem hostOps0_fresh : (hostOps0 : List (HloOp τ sig (Elt F))).Forall fun op => op.fresh = ∅ := by
  simp only [List.Forall]; repeat' constructor

/-- The program is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline library's -/

/-- A run that ends in the pipeline library's post, for proof data whose arrays are the region-entry contents,
    leaves every argument array as launched: a staged argument by what the library says of an input window's
    array, the others by the post's clause for the buffers no window stages; then no host line wrote it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.KernelIdeal.Hand

end
-- ==== Proof.IdealBody.lean ====
/-
  The frame of `KernelIdeal`, for any float instance. One grid point of the kernel: the point's block of node features is
  projected by the embedding matrix and biased into the row scratch, each of the two layers rewrites the scratch
  four bands of 2048 rows at a time (a band is read, multiplied by that layer's fused gate matrix, biased, cut into
  its input, output and candidate gates, and stored back as output gate times tanh of input gate times candidate),
  and the rows' mean over the 512 nodes of each tree is stored into the output block. The body is run symbolically
  once, at any point, through the two counted loops by their invariants; what it leaves in the output block is the
  one store the run finds, read back over arbitrary prior contents. The scratch is whole-stored before it is read,
  so nothing is carried from one point to the next: the region invariant is the pipeline library's plain one.
-/
import proofs.«111409_j34626026341055_2_alg».proof.Proof.IdealKit
import proofs.«111409_j34626026341055_2_alg».proof.Proof.Gen.KernelIdeal.Skeleton
import proofs.«111409_j34626026341055_2_alg».proof.Proof.Gen.KernelIdeal.Loops
import Idealize.ShloMosaic.Lib.Pipeline.Frame
import Idealize.ShloMosaic.Lib.Exec.Geometry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any whole staging memrefs -/

set_option maxHeartbeats 4000000 in
/-- What the body's one store leaves in the output block, as the list of pieces the symbolic run finds, with the
    proof that on whole memrefs — the five inputs' at their contents, the output's and the row scratch's at
    anything — the body runs to a continuation holding the inputs' as they were, the output's with that list
    written, and the scratch at some contents. The embedding store covers the scratch, so what the loops read
    does not depend on what the scratch held before. -/
noncomputable def kernelRun (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) :
    { L6 : List (View.Piece (Elt F) S16x128 .f32) //
      ∀ (E : Set ℕ) (K : PUnit → sProp 𝕄),
        iprop(owns (c : Thread nD τ) arg1 fullShare x0 ∗ owns (c : Thread nD τ) arg2 fullShare w0 ∗ owns (c : Thread nD τ) arg3 fullShare b0 ∗ owns (c : Thread nD τ) arg4 fullShare wf ∗ owns (c : Thread nD τ) arg5 fullShare bf
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare w0 ∗ owns (c : Thread nD τ) arg3 fullShare b0 ∗ owns (c : Thread nD τ) arg4 fullShare wf ∗ owns (c : Thread nD τ) arg5 fullShare bf
                ∗ (∃ f, arg6.view.loc (c : Thread nD τ) ↦[arg6.view.set]{fullShare} arg6.view.writes (Elt F) f L6)
                ∗ (∃ d, owns (c : Thread nD τ) arg7 fullShare d)) -∗ K ⟨⟩))
          ⊢ wp frame (wpE (defs₀ (F := F)) Variants.none c none) E (cc0__tree_lstm_kernel i arg1 harg1 arg2 harg2 arg3 harg3 arg4 harg4 arg5 harg5 arg6 harg6 arg7 harg7) K } := by
  refine ⟨?_, fun E K => ?run⟩
  case run =>
    simp only [cc0__tree_lstm_kernel_eq_skeleton]; unfold cc0__tree_lstm_kernel_skel
    simp only [k0_part1_eq_skeleton]; unfold k0_part1_skel
    simp only [bind_assoc]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexists _; isplitr
    swap; · iexact H7
    ipureintro; rfl

/-- One staging buffer of the output window, through which the block's contents are stated. -/
abbrev VO5 : View sig .tc .vmem S16x128 .f32 := (Memref.whole cc0_stg5_0 : Memref sig .tc .vmem S16x128 .f32).view
/-- The row scratch as the pipeline passes it. -/
abbrev scM : Memref sig .tc .vmem S8192x128 .f32 := Memref.whole cc0_scratch0
/-- Each window's current staging memref at a point, as the pipeline passes it, and its wholeness. -/
abbrev ms0_0 (t : Fin cfg0.N) : Memref sig .tc .vmem S16x512x64 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S64x128 .bf16 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S128 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S2x128x384 .bf16 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S2x384 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S16x128 .f32 := win0_5.stage (cfg0.slots t 5)
abbrev hs0_5 (t : Fin cfg0.N) : (ms0_5 t).IsWhole := Facts₀.hstage0_5 ((cfg0.slots t 5).cast Facts₀.nbuf0_5)

/-- The found store is the whole output block. -/
theorem cover5 (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) (y : S16x128.Idx) :
    ∃ pc ∈ (kernelRun c i arg1 harg1 arg2 harg2 arg3 harg3 arg4 harg4 arg5 harg5 arg6 harg6 arg7 harg7 x0 w0 b0 wf bf).1, y ∈ pc.1.set :=
  View.cover_of_tiledL (kernelRun c i arg1 harg1 arg2 harg2 arg3 harg3 arg4 harg4 arg5 harg5 arg6 harg6 arg7 harg7 x0 w0 b0 wf bf).1 S16x128.size (by sl_kernel_rfl) y

/-- What the body leaves in the output block: the found store read back over arbitrary contents. -/
def out0_5 (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) : Vec F S16x128 .f32 :=
  VO5.read (Elt F) (VO5.writes (Elt F) VO5.junk (kernelRun c i arg1 harg1 arg2 harg2 arg3 harg3 arg4 harg4 arg5 harg5 arg6 harg6 arg7 harg7 x0 w0 b0 wf bf).1)

/-- The region invariant with the row scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The pipeline's proof data -/

/-- The proof data of the one pipeline on core `c`: the arrays as the region finds them; after the body at point
    `t` each input's buffer at its block and the output's at what the body stores from those blocks; the invariant
    the library's plain one; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: each input's memref holds its block, so the run applies; the invariant lends the scratch
    at anything and takes it back at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rewrite [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, PhiA0_eq]
  iintro ⟨⟨HS, Hg⟩, Ho, ⟨%d0, H0⟩, ⟨%d1, H1⟩, ⟨%d2, H2⟩, ⟨%d3, H3⟩, ⟨%d4, H4⟩, ⟨%d5, H5⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) scM (Memref.isWhole_whole _) (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  unfold owns out0_5; iexists _; isplitr
  swap; · iexact H5
  ipureintro; exact View.read_writes_of_cover _ _ _ _ _ (cover5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of the program terminates, and every
    final state has each array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs to the end and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.Bands.lean ====
/-
  What the row scratch holds when the mean is taken. The scratch has 8192 rows in four bands of 2048. A layer's
  loop visits the bands in order; a trip reads its band, applies the layer's row function to it and stores the
  result over the same band. Bands are disjoint, so a trip finds its own band as the loop found it, whatever the
  earlier trips stored: after the loop every row holds the layer's function of the band of the loop-entry contents
  it lies in. The first layer's loop enters at the embedding, which one store put over the whole scratch; the
  second at what the first left.
-/
import proofs.«111409_j34626026341055_2_alg».proof.Proof.IdealBody
import Idealize.ShloMosaic.Lib.WritesUnit
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.KernelIdeal.Facts₀

variable {F : FTy → Type} [FloatOps F]

/-- A function of one band applied band by band: row `r` of the result is row `r mod 2048` of `P` of the band
    `r / 2048` of `g`. -/
def bandMap (P : Vec F S2048x128 .f32 → FVec F S2048x128 .f32) (g : Vec F S8192x128 .f32) : Vec F S8192x128 .f32 :=
  fun y => P (fun x => g (ix2 (⟨2048 * ((y 0).val / 2048) + (x 0).val, by
      have := idx2_lt0 y; have := idx2_lt0 x; omega⟩ : Fin 8192) (x 1)))
    (ix2 (⟨(y 0).val % 2048, Nat.mod_lt _ (by decide)⟩ : Fin 2048) (y 1))

/-- One trip: the band `k` is replaced by `P` of what was read there, the other rows are kept. -/
theorem read_trip {sig : RefSig} {κ : Kind} {sp : Space} (v : View sig κ sp S8192x128 .f32) (f : v.ty.Contents (Elt F))
    (P : Vec F S2048x128 .f32 → FVec F S2048x128 .f32) (off : Fin 2 → ℕ) (inb : ∀ a, off a + S2048x128.size a ≤ S8192x128.size a)
    (k : ℕ) (hoff : off = ![2048 * k, 0]) (hk : k < 4) (y : S8192x128.Idx) :
    v.read (Elt F) (v.writes (Elt F) f [⟨Rect.unit (s := S8192x128) off S2048x128.size inb,
        P (v.readAt (Elt F) (Rect.unit (s := S8192x128) off S2048x128.size inb).toLoadRect f)⟩]) y
      = if 2048 * k ≤ (y 0).val ∧ (y 0).val < 2048 * k + 2048 then
          P (fun x => v.read (Elt F) f (ix2 (⟨2048 * k + (x 0).val, by have := idx2_lt0 x; omega⟩ : Fin 8192) (x 1)))
            (ix2 (⟨(y 0).val % 2048, Nat.mod_lt _ (by decide)⟩ : Fin 2048) (y 1))
        else v.read (Elt F) f y := by
  by_cases hb : 2048 * k ≤ (y 0).val ∧ (y 0).val < 2048 * k + 2048
  · rw [if_pos hb]
    refine (View.read_writes_cons_rows_of_mem v f inb _ [] y
      (ix2 (⟨(y 0).val % 2048, Nat.mod_lt _ (by decide)⟩ : Fin 2048) (y 1)) hoff (by show (y 0).val = 2048 * k + (y 0).val % 2048; omega) rfl).trans ?_
    refine congrArg (fun q => P q _) (funext fun x => ?_)
    rw [View.readAt_apply]
    refine congrArg _ (funext fun a => Fin.ext ?_)
    subst hoff
    match a with
    | ⟨0, _⟩ => show 2048 * k + 1 * (x 0).val = 2048 * k + (x 0).val; omega
    | ⟨1, _⟩ => show 0 + 1 * (x 1).val = (x 1).val; omega
  · rw [if_neg hb]
    exact View.read_writes_cons_rows_of_not_mem (o := 2048 * k) (W := 2048) v f inb _ [] y hoff rfl (by omega)

/-- One trip's piece list, as the symbolic run found it: the trip's band, holding the layer's row function of the
    band as the trip read it. -/
theorem tripL1_eq (𝒱 : Variants) (c : Dev nD) (bd : Option 𝒱.V) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (v13 : Vec F S1x128x384 .bf16) (v15 : Vec F S1x384 .f32) (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 v13 v15 k f
      = [⟨Rect.unit (s := S8192x128) (k0_off1 k) S2048x128.size (Facts₀.k0_off1_inb k),
          k0_pay3 v13 v15 (View.readAt (Elt F) arg7.view (Rect.unit (s := S8192x128) (k0_off1 k) S2048x128.size (Facts₀.k0_off1_inb k)).toLoadRect f)⟩] := by
  unfold tripL_k0_t1 trip_k0_t1
  rfl

/-- After the first `n` trips the rows of the first `n` bands hold the layer's rows of what the loop found there,
    the other rows are as the loop found them. -/
theorem read_pb1 (𝒱 : Variants) (c : Dev nD) (bd : Option 𝒱.V) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (v13 : Vec F S1x128x384 .bf16) (v15 : Vec F S1x384 .f32) (G : BufTy.Contents (Elt F) arg7.view.ty) (n : ℕ) (hn : n ≤ k0_t1_loop.trips) :
    ∀ y : S8192x128.Idx, arg7.view.read (Elt F) (arg7.view.writes (Elt F) G (pb_k0_t1 (F := F) 𝒱 c bd i arg1 harg1 arg2 harg2 arg3 harg3 arg4 harg4 arg5 harg5 arg6 harg6 arg7 harg7 v13 v15 G n)) y
      = if (y 0).val < 2048 * n then bandMap (k0_pay3 v13 v15) (arg7.view.read (Elt F) G) y else arg7.view.read (Elt F) G y := by
  induction n with
  | zero =>
    intro y
    rw [pb_k0_t1.eq_1, if_neg (by omega)]
    rfl
  | succ n ih =>
    intro y
    have hk : n < k0_t1_loop.trips := hn
    have h4 : n < 4 := lt_of_lt_of_le hk k0_t1_abs.2.1
    have ih' := ih (Nat.le_of_lt hk)
    have e := pb_k0_t1_succ (F := F) 𝒱 c bd i arg1 harg1 arg2 harg2 arg3 harg3 arg4 harg4 arg5 harg5 arg6 harg6 arg7 harg7 v13 v15 G ⟨n, hk⟩
    rw [show (⟨n, hk⟩ : Fin k0_t1_loop.trips).val + 1 = n + 1 from rfl] at e
    rw [e, View.writes_append, tripL1_eq,
      read_trip arg7.view _ (k0_pay3 v13 v15) (k0_off1 ⟨n, hk⟩) (Facts₀.k0_off1_inb ⟨n, hk⟩) n (k0_off1_eq ⟨n, hk⟩) h4 y]
    have hy0 : (y 0).val < 8192 := idx2_lt0 y
    by_cases hb : 2048 * n ≤ (y 0).val ∧ (y 0).val < 2048 * n + 2048
    · rw [if_pos hb, if_pos (by omega)]
      unfold bandMap
      refine congrArg (fun q => k0_pay3 v13 v15 q _) (funext fun x => ?_)
      have hx0 : (x 0).val < 2048 := idx2_lt0 x
      rw [ih', if_neg (by show ¬ (2048 * n + (x 0).val < 2048 * n); omega)]
      refine congrArg _ (funext fun a => Fin.ext ?_)
      match a with
      | ⟨0, _⟩ => show 2048 * n + (x 0).val = 2048 * ((y 0).val / 2048) + (x 0).val; omega
      | ⟨1, _⟩ => rfl
    · rw [if_neg hb, ih']
      by_cases hl : (y 0).val < 2048 * n
      · rw [if_pos hl, if_pos (by omega)]
      · rw [if_neg hl, if_neg (by omega)]

/-- One trip's piece list, as the symbolic run found it: the trip's band, holding the layer's row function of the
    band as the trip read it. -/
theorem tripL2_eq (𝒱 : Variants) (c : Dev nD) (bd : Option 𝒱.V) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (v19 : Vec F S1x128x384 .bf16) (v21 : Vec F S1x384 .f32) (k : Fin k0_t2_loop.trips) (f : BufTy.Contents (Elt F) arg7.view.ty) :
    tripL_k0_t2 (F := F) 𝒱 c bd i arg1 harg1 arg2 harg2 arg3 harg3 arg4 harg4 arg5 harg5 arg6 harg6 arg7 harg7 v19 v21 k f
      = [⟨Rect.unit (s := S8192x128) (k0_off2 k) S2048x128.size (Facts₀.k0_off2_inb k),
          k0_pay4 v19 v21 (View.readAt (Elt F) arg7.view (Rect.unit (s := S8192x128) (k0_off2 k) S2048x128.size (Facts₀.k0_off2_inb k)).toLoadRect f)⟩] := by
  unfold tripL_k0_t2 trip_k0_t2
  rfl

/-- After the first `n` trips the rows of the first `n` bands hold the layer's rows of what the loop found there,
    the other rows are as the loop found them. -/
theorem read_pb2 (𝒱 : Variants) (c : Dev nD) (bd : Option 𝒱.V) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (v19 : Vec F S1x128x384 .bf16) (v21 : Vec F S1x384 .f32) (G : BufTy.Contents (Elt F) arg7.view.ty) (n : ℕ) (hn : n ≤ k0_t2_loop.trips) :
    ∀ y : S8192x128.Idx, arg7.view.read (Elt F) (arg7.view.writes (Elt F) G (pb_k0_t2 (F := F) 𝒱 c bd i arg1 harg1 arg2 harg2 arg3 harg3 arg4 harg4 arg5 harg5 arg6 harg6 arg7 harg7 v19 v21 G n)) y
      = if (y 0).val < 2048 * n then bandMap (k0_pay4 v19 v21) (arg7.view.read (Elt F) G) y else arg7.view.read (Elt F) G y := by
  induction n with
  | zero =>
    intro y
    rw [pb_k0_t2.eq_1, if_neg (by omega)]
    rfl
  | succ n ih =>
    intro y
    have hk : n < k0_t2_loop.trips := hn
    have h4 : n < 4 := lt_of_lt_of_le hk k0_t2_abs.2.1
    have ih' := ih (Nat.le_of_lt hk)
    have e := pb_k0_t2_succ (F := F) 𝒱 c bd i arg1 harg1 arg2 harg2 arg3 harg3 arg4 harg4 arg5 harg5 arg6 harg6 arg7 harg7 v19 v21 G ⟨n, hk⟩
    rw [show (⟨n, hk⟩ : Fin k0_t2_loop.trips).val + 1 = n + 1 from rfl] at e
    rw [e, View.writes_append, tripL2_eq,
      read_trip arg7.view _ (k0_pay4 v19 v21) (k0_off2 ⟨n, hk⟩) (Facts₀.k0_off2_inb ⟨n, hk⟩) n (k0_off2_eq ⟨n, hk⟩) h4 y]
    have hy0 : (y 0).val < 8192 := idx2_lt0 y
    by_cases hb : 2048 * n ≤ (y 0).val ∧ (y 0).val < 2048 * n + 2048
    · rw [if_pos hb, if_pos (by omega)]
      unfold bandMap
      refine congrArg (fun q => k0_pay4 v19 v21 q _) (funext fun x => ?_)
      have hx0 : (x 0).val < 2048 := idx2_lt0 x
      rw [ih', if_neg (by show ¬ (2048 * n + (x 0).val < 2048 * n); omega)]
      refine congrArg _ (funext fun a => Fin.ext ?_)
      match a with
      | ⟨0, _⟩ => show 2048 * n + (x 0).val = 2048 * ((y 0).val / 2048) + (x 0).val; omega
      | ⟨1, _⟩ => rfl
    · rw [if_neg hb, ih']
      by_cases hl : (y 0).val < 2048 * n
      · rw [if_pos hl, if_pos (by omega)]
      · rw [if_neg hl, if_neg (by omega)]

theorem trips1 : k0_t1_loop.trips = 4 := by decide
theorem trips2 : k0_t2_loop.trips = 4 := by decide

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- Layer `l`'s fused gate matrix and bias row, cut out of the two resident operands. -/
def wSl0 (wf : Vec F S2x128x384 .bf16) : Vec F S1x128x384 .bf16 := View.ld wf (Rect.unit (s := S2x128x384) ![0, 0, 0] S1x128x384.size Facts₀.inb_S2x128x384_S1x128x384_0_0_0)
def wSl1 (wf : Vec F S2x128x384 .bf16) : Vec F S1x128x384 .bf16 := View.ld wf (Rect.unit (s := S2x128x384) ![1, 0, 0] S1x128x384.size Facts₀.inb_S2x128x384_S1x128x384_1_0_0)
def bSl0 (bf : Vec F S2x384 .f32) : Vec F S1x384 .f32 := View.ld bf (Rect.unit (s := S2x384) ![0, 0] S1x384.size Facts₀.inb_S2x384_S1x384_0_0)
def bSl1 (bf : Vec F S2x384 .f32) : Vec F S1x384 .f32 := View.ld bf (Rect.unit (s := S2x384) ![1, 0] S1x384.size Facts₀.inb_S2x384_S1x384_1_0)

/-- The scratch when the mean is taken: the second layer band by band of the first layer band by band of the
    embedding. -/
def scratchEnd (x0 : Vec F S16x512x64 .f32) (w0 : Vec F S64x128 .bf16) (b0 : Vec F S128 .f32) (wf : Vec F S2x128x384 .bf16) (bf : Vec F S2x384 .f32) :
    Vec F S8192x128 .f32 :=
  bandMap (k0_pay4 (wSl1 wf) (bSl1 bf)) (bandMap (k0_pay3 (wSl0 wf) (bSl0 bf)) (k0_pay2 x0 w0 b0))

/-- A whole load of a whole memref's contents reads them; a load of one layer's slab reads that slab. -/
theorem rd_x {arg1 : Memref sig .tc .vmem S16x512x64 .f32} (harg1 : arg1.IsWhole) (x0 : Vec F S16x512x64 .f32) :
    View.readAt (Elt F) arg1.view (Rect.unit (s := S16x512x64) ![0, 0, 0] S16x512x64.size Facts₀.inb_S16x512x64_S16x512x64_0_0_0).toLoadRect (harg1.unread x0) = x0 := by
  rw [View.readAt_eq_ld, harg1.read_unread, View.ld_unit_zero hz3]
theorem rd_w {arg2 : Memref sig .tc .vmem S64x128 .bf16} (harg2 : arg2.IsWhole) (w0 : Vec F S64x128 .bf16) :
    View.readAt (Elt F) arg2.view (Rect.unit (s := S64x128) ![0, 0] S64x128.size Facts₀.inb_S64x128_S64x128_0_0).toLoadRect (harg2.unread w0) = w0 := by
  rw [View.readAt_eq_ld, harg2.read_unread, View.ld_unit_zero hz2]
theorem rd_b {arg3 : Memref sig .tc .vmem S128 .f32} (harg3 : arg3.IsWhole) (b0 : Vec F S128 .f32) :
    View.readAt (Elt F) arg3.view (Rect.unit (s := S128) ![0] S128.size Facts₀.inb_S128_S128_0).toLoadRect (harg3.unread b0) = b0 := by
  rw [View.readAt_eq_ld, harg3.read_unread, View.ld_unit_zero hz1]
theorem rd_w0 {arg4 : Memref sig .tc .vmem S2x128x384 .bf16} (harg4 : arg4.IsWhole) (wf : Vec F S2x128x384 .bf16) :
    View.readAt (Elt F) arg4.view (Rect.unit (s := S2x128x384) ![0, 0, 0] S1x128x384.size Facts₀.inb_S2x128x384_S1x128x384_0_0_0).toLoadRect (harg4.unread wf) = wSl0 wf := by
  rw [View.readAt_eq_ld, harg4.read_unread]; rfl
theorem rd_w1 {arg4 : Memref sig .tc .vmem S2x128x384 .bf16} (harg4 : arg4.IsWhole) (wf : Vec F S2x128x384 .bf16) :
    View.readAt (Elt F) arg4.view (Rect.unit (s := S2x128x384) ![1, 0, 0] S1x128x384.size Facts₀.inb_S2x128x384_S1x128x384_1_0_0).toLoadRect (harg4.unread wf) = wSl1 wf := by
  rw [View.readAt_eq_ld, harg4.read_unread]; rfl
theorem rd_b0 {arg5 : Memref sig .tc .vmem S2x384 .f32} (harg5 : arg5.IsWhole) (bf : Vec F S2x384 .f32) :
    View.readAt (Elt F) arg5.view (Rect.unit (s := S2x384) ![0, 0] S1x384.size Facts₀.inb_S2x384_S1x384_0_0).toLoadRect (harg5.unread bf) = bSl0 bf := by
  rw [View.readAt_eq_ld, harg5.read_unread]; rfl
theorem rd_b1 {arg5 : Memref sig .tc .vmem S2x384 .f32} (harg5 : arg5.IsWhole) (bf : Vec F S2x384 .f32) :
    View.readAt (Elt F) arg5.view (Rect.unit (s := S2x384) ![1, 0] S1x384.size Facts₀.inb_S2x384_S1x384_1_0).toLoadRect (harg5.unread bf) = bSl1 bf := by
  rw [View.readAt_eq_ld, harg5.read_unread]; rfl

set_option maxHeartbeats 1000000 in
/-- The last load of the scratch reads that. -/
theorem scratch_final (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) :
    kernelRun.sl.x c i arg1 harg1 arg2 harg2 arg3 harg3 arg4 harg4 arg5 harg5 arg6 harg6 arg7 harg7 x0 w0 b0 wf bf = scratchEnd x0 w0 b0 wf bf := by
  funext y
  unfold kernelRun.sl.x kernelRun.sl.H7_1
  rw [rd_w0 harg4, rd_w1 harg4, rd_b0 harg5, rd_b1 harg5, rd_x harg1, rd_w harg2, rd_b harg3]
  rw [View.readAt_eq_ld, View.ld_unit_zero hz2, View.writes_append,
    read_pb2 _ c _ i arg1 harg1 arg2 harg2 arg3 harg3 arg4 harg4 arg5 harg5 arg6 harg6 arg7 harg7 _ _ _ _ (le_refl _) y, if_pos (by have := idx2_lt0 y; rw [trips2]; omega)]
  unfold scratchEnd
  refine congrArg (fun g => bandMap _ g y) (funext fun y' => ?_)
  rw [View.writes_append, read_pb1 _ c _ i arg1 harg1 arg2 harg2 arg3 harg3 arg4 harg4 arg5 harg5 arg6 harg6 arg7 harg7 _ _ _ _ (le_refl _) y', if_pos (by have := idx2_lt0 y'; rw [trips1]; omega)]
  refine congrArg (fun g => bandMap _ g y') (funext fun z => ?_)
  exact View.read_writes_cons_unit_of_mem arg7.view _ Facts₀.inb_S8192x128_S8192x128_0_0 _ [] z z rfl
    (fun a => match a with | ⟨0, _⟩ => (Nat.zero_add _).symm | ⟨1, _⟩ => (Nat.zero_add _).symm)

end Cert.KernelIdeal.Hand

end
-- ==== Proof.Spec.lean ====
/-
  The function both programs compute, over the extended reals, index by index.

  A tree's node with features `x` is embedded as `x · E + e`; each of the two layers sends a node's hidden row `h`
  to `σ(o) · tanh(σ(i) · tanh(c))`, where each of the three gate rows `i`, `o`, `c` is `h · W + bW + bU` for that
  gate's own matrix and its two biases (a node has no children, so the recurrent term is its bias alone) and `σ`
  is the logistic function; the result is the mean over a tree's 512 nodes of the second layer's rows.

  The gate row is stated in two groupings of its two bias terms, equal by associativity of the extended reals'
  sum: the biases added one after the other, and the two biases added first.
-/
import Idealize.ShloMosaic.PureOps.Ideal
import Idealize.ShloMosaic.Lib.ValueIdx

noncomputable section

namespace Cert.Spec

open Idealize.ShloMosaic Idealize.ShloMosaic.ValueIdx

/-- A node's hidden row. -/
abbrev Row := Fin 128 → EReal

/-- The embedding of a node: its 64 features times the embedding matrix, plus the embedding bias. -/
def embRow (x : Fin 64 → EReal) (E : Fin 64 → Fin 128 → EReal) (e : Fin 128 → EReal) : Row :=
  fun j => (∑ f : Fin 64, x f * E f j) + e j

/-- A gate's row before its activation, the two biases added one after the other. -/
def gateRow (h : Row) (W : Fin 128 → Fin 128 → EReal) (bW bU : Fin 128 → EReal) : Row :=
  fun j => ((∑ k : Fin 128, h k * W k j) + bW j) + bU j

/-- The same with the two biases added first. -/
def gateRow' (h : Row) (W : Fin 128 → Fin 128 → EReal) (bW bU : Fin 128 → EReal) : Row :=
  fun j => (∑ k : Fin 128, h k * W k j) + (bW j + bU j)

theorem gateRow'_eq (h : Row) (W : Fin 128 → Fin 128 → EReal) (bW bU : Fin 128 → EReal) :
    gateRow' h W bW bU = gateRow h W bW bU := funext fun j => (add_assoc _ _ _).symm

/-- A layer's new hidden row from its three gate rows. -/
def cellOf (i o c : Row) : Row :=
  fun j => Ideal.logistic (o j) * Ideal.tanh (Ideal.logistic (i j) * Ideal.tanh (c j))

/-- Layer `l`'s matrix of one gate, and a bias row of it. -/
def matOf (W : (⟨3, ![2, 128, 128]⟩ : Shape).Idx → EReal) (l : Fin 2) : Fin 128 → Fin 128 → EReal := fun k j => W (ix3 l k j)
def biasOf (b : (⟨2, ![2, 128]⟩ : Shape).Idx → EReal) (l : Fin 2) : Fin 128 → EReal := fun j => b (ix2 l j)

/-- One layer on a hidden row. -/
def layer (Wi Wo Wc : (⟨3, ![2, 128, 128]⟩ : Shape).Idx → EReal) (bWi bUi bWo bUo bWc bUc : (⟨2, ![2, 128]⟩ : Shape).Idx → EReal)
    (l : Fin 2) (h : Row) : Row :=
  cellOf (gateRow h (matOf Wi l) (biasOf bWi l) (biasOf bUi l)) (gateRow h (matOf Wo l) (biasOf bWo l) (biasOf bUo l))
    (gateRow h (matOf Wc l) (biasOf bWc l) (biasOf bUc l))

/-- The hidden row of node `n` of tree `b` after both layers. -/
def hidden (x : (⟨3, ![256, 512, 64]⟩ : Shape).Idx → EReal) (E : (⟨2, ![64, 128]⟩ : Shape).Idx → EReal) (e : (⟨1, ![128]⟩ : Shape).Idx → EReal)
    (Wi Wo Wc : (⟨3, ![2, 128, 128]⟩ : Shape).Idx → EReal) (bWi bUi bWo bUo bWc bUc : (⟨2, ![2, 128]⟩ : Shape).Idx → EReal)
    (b : Fin 256) (n : Fin 512) : Row :=
  layer Wi Wo Wc bWi bUi bWo bUo bWc bUc 1
    (layer Wi Wo Wc bWi bUi bWo bUo bWc bUc 0
      (embRow (fun f => x (ix3 b n f)) (fun f j => E (ix2 f j)) (fun j => e (ix1 j))))

/-- The result: the mean over a tree's nodes, the divisor the float 512 as both programs spell it. -/
def G (x : (⟨3, ![256, 512, 64]⟩ : Shape).Idx → EReal) (E : (⟨2, ![64, 128]⟩ : Shape).Idx → EReal) (e : (⟨1, ![128]⟩ : Shape).Idx → EReal)
    (Wi Wo Wc : (⟨3, ![2, 128, 128]⟩ : Shape).Idx → EReal) (bWi bUi bWo bUo bWc bUc : (⟨2, ![2, 128]⟩ : Shape).Idx → EReal) :
    (⟨2, ![256, 128]⟩ : Shape).Idx → EReal :=
  fun i => Ideal.div (∑ n : Fin 512, hidden x E e Wi Wo Wc bWi bUi bWo bUo bWc bUc (i 0) n (i 1)) (Ideal.ofBits .f32 0x44000000#32)

end Cert.Spec

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.Payload.lean ====
/-
  What the idealized kernel's pure values are, read at an index, over the extended reals.

  The embedding: the [16, 512, 64] block of features is flattened to [8192, 64] (tree a's node n is row 512a + n),
  multiplied by the [64, 128] embedding matrix and the bias row is added; the format changes are the identity and the
  product accumulated into the zero splat is the plain sum over the shared axis.

  A layer: a [2048, 128] block of hidden rows is multiplied by the fused [128, 384] matrix and the fused bias row is
  added; columns 0..127 of the result are the input gate's row, 128..255 the output gate's, 256..383 the candidate's,
  and the new hidden row is σ(o) · tanh(σ(i) · tanh(c)).

  The mean: the [8192, 128] hidden rows are unflattened to [16, 512, 128], summed over the node axis from the zero
  word, and divided by the float 512.
-/
import proofs.«111409_j34626026341055_2_alg».proof.Proof.Gen.KernelIdeal.Skeleton
import proofs.«111409_j34626026341055_2_alg».proof.Proof.Spec
import proofs.«111409_j34626026341055_2_alg».proof.Proof.LibIndex
import Idealize.ShloMosaic.Lib.ValueIdx
import Idealize.ShloMosaic.Lib.Pipeline.Value
import Idealize.ShloMosaic.Lib.ValueLayout
import Idealize.ShloMosaic.PureOps.Ideal.Laws

noncomputable section

namespace Cert.Pay

open Idealize.ShloMosaic Idealize.ShloMosaic.ValueIdx Cert.KernelIdeal Cert.KernelIdeal.Gen

variable [Cert.KernelIdeal.Facts]

/-! ## Layout operations at an index -/

/-- A [16, 512, c] array flattened to [8192, c] reads, at row 512a + n, the array at (a, n). -/
theorem flatten_apply {α : Type} {c : ℕ} (x : (⟨3, ![16, 512, c]⟩ : Shape).Idx → α)
    (h : (⟨3, ![16, 512, c]⟩ : Shape).ShapeCasts ⟨2, ![8192, c]⟩) (a : Fin 16) (n : Fin 512) (r : Fin 8192)
    (hr : r.val = 512 * a.val + n.val) (k : Fin c) :
    shapeCast ⟨2, ![8192, c]⟩ x h (ix2 r k) = x (ix3 a n k) :=
  shapeCast_apply x h _ _ (by
    rw [Shape.rowMajor_val_three, Shape.rowMajor_val_two]
    show (a.val * 512 + n.val) * c + k.val = r.val * c + k.val
    rw [hr, Nat.mul_comm a.val 512])

/-- An [8192, c] array unflattened to [16, 512, c] reads, at (a, n), the array at row 512a + n. -/
theorem unflatten_apply {α : Type} {c : ℕ} (x : (⟨2, ![8192, c]⟩ : Shape).Idx → α)
    (h : (⟨2, ![8192, c]⟩ : Shape).ShapeCasts ⟨3, ![16, 512, c]⟩) (a : Fin 16) (n : Fin 512) (r : Fin 8192)
    (hr : r.val = 512 * a.val + n.val) (k : Fin c) :
    shapeCast ⟨3, ![16, 512, c]⟩ x h (ix3 a n k) = x (ix2 r k) :=
  shapeCast_apply x h _ _ (by
    rw [Shape.rowMajor_val_three, Shape.rowMajor_val_two]
    show r.val * c + k.val = (a.val * 512 + n.val) * c + k.val
    rw [hr, Nat.mul_comm a.val 512])

/-- The plain [M, K] × [K, N] product accumulated into the zero splat reads, at (p, q), the sum over the shared axis. -/
theorem matmul_plain_apply {M K N : ℕ} {φ₁ φ₂ : FTy} (D : DotDims ⟨2, ![M, K]⟩ ⟨2, ![K, N]⟩ ⟨2, ![M, N]⟩)
    (hD : D = DotDims.plain M K N) (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) :=
  (Ideal.matmul_constant_zero_apply D none l r (ix2 p q)).trans (Cert.LayoutLib.dot_plain_sum D hD l r p q)

/-- Both of the kernel's products are plain: the left operand's columns against the right operand's rows. -/
theorem dot1_plain : dot_S8192x64_S64x128_S8192x128_1_0_0_1_n_n = DotDims.plain 8192 64 128 := rfl
theorem dot2_plain : dot_S2048x128_S128x384_S2048x384_1_0_0_1_n_n = DotDims.plain 2048 128 384 := rfl

/-! ## The embedding -/

/-- The embedding payload at row 512a + n, column j: the embedding of node n of tree a. -/
theorem pay2_apply (x0 : Vec Ideal S16x512x64 .f32) (w0 : Vec Ideal S64x128 .bf16) (b0 : Vec Ideal S128 .f32)
    (a : Fin 16) (n : Fin 512) (j : Fin 128) :
    k0_pay2 (F := Ideal) x0 w0 b0 (ix2 (⟨512 * a.val + n.val, by omega⟩ : Fin 8192) j)
      = Cert.Spec.embRow (fun f => x0 (ix3 a n f)) (fun f j => w0 (ix2 f j)) (fun j => b0 (ix1 j)) j := by
  unfold k0_pay2
  show shapeCast S8192x128 (addf (matmul dot_S8192x64_S64x128_S8192x128_1_0_0_1_n_n none
        (shapeCast S8192x64 (truncf .bf16 x0 Facts₀.bitsLt_bf16_f32) Facts₀.shapeCasts_S16x512x64_S8192x64)
        (shapeCast S64x128 w0 Facts₀.shapeCasts_S64x128_S64x128) (constant (F := Ideal) S8192x128 .f32 0x00000000#32))
      (broadcastTo S8192x128 (shapeCast S1x128 b0 Facts₀.shapeCasts_S128_S1x128) Facts₀.broadcasts_S1x128_S8192x128))
      Facts₀.shapeCasts_S8192x128_S8192x128 (ix2 (⟨512 * a.val + n.val, by omega⟩ : Fin 8192) j) = _
  rw [shapeCast_self, addf_apply, matmul_plain_apply _ dot1_plain, broadcastTo_1b_ab_apply, shapeCast_a_1a_apply, shapeCast_self]
  refine congrArg (· + b0 (ix1 j)) (Finset.sum_congr rfl fun k _ => ?_)
  rw [flatten_apply _ _ a n _ rfl k]
  rfl

/-! ## A layer -/

/-- The fused gate rows of a block of hidden rows, before they are cut into the three gates. -/
def lin (W : FVec Ideal S1x128x384 .bf16) (B : FVec Ideal S1x384 .f32) (h : FVec Ideal S2048x128 .f32) : FVec Ideal S2048x384 .f32 :=
  addf (matmul dot_S2048x128_S128x384_S2048x384_1_0_0_1_n_n none (truncf .bf16 h Facts₀.bitsLt_bf16_f32)
      (shapeCast S128x384 W Facts₀.shapeCasts_S1x128x384_S128x384) (constant (F := Ideal) S2048x384 .f32 0x00000000#32))
    (broadcastTo S2048x384 (shapeCast S1x384 (shapeCast S384 B Facts₀.shapeCasts_S1x384_S384) Facts₀.shapeCasts_S384_S1x384)
      Facts₀.broadcasts_S1x384_S2048x384)

/-- At (p, c): row p of the block times column c of the fused matrix, plus the fused bias at c. -/
theorem lin_apply (W : FVec Ideal S1x128x384 .bf16) (B : FVec Ideal S1x384 .f32) (h : FVec Ideal S2048x128 .f32)
    (p : Fin 2048) (c : Fin 384) :
    lin W B h (ix2 p c) = (∑ k : Fin 128, h (ix2 p k) * W (ix3 (0 : Fin 1) k c)) + B (ix2 (0 : Fin 1) c) := by
  unfold lin
  rw [addf_apply, matmul_plain_apply _ dot2_plain, broadcastTo_1b_ab_apply, shapeCast_a_1a_apply, shapeCast_1a_a_apply]
  refine congrArg (· + B (ix2 (0 : Fin 1) c)) (Finset.sum_congr rfl fun k _ => ?_)
  rw [shapeCast_1ab_ab_apply]
  rfl

/-- The new hidden rows of a block from its fused gate rows: σ(o) · tanh(σ(i) · tanh(c)) with i, o, c the three
    column ranges of width 128. -/
def cell (X : FVec Ideal S2048x384 .f32) : FVec Ideal S2048x128 .f32 :=
  shapeCast S2048x128
    (mulf (logistic (extractStridedSlice S2048x128 ![0, 128] X Facts₀.slices_S2048x384_o0_128_S2048x128))
      (tanh (mulf (logistic (extractStridedSlice S2048x128 ![0, 0] X Facts₀.slices_S2048x384_o0_0_S2048x128))
        (tanh (extractStridedSlice S2048x128 ![0, 256] X Facts₀.slices_S2048x384_o0_256_S2048x128)))))
    Facts₀.shapeCasts_S2048x128_S2048x128

/-- The cell at (p, j), from row p of the fused gate rows at columns j, 128 + j and 256 + j. -/
theorem cell_apply (X : FVec Ideal S2048x384 .f32) (p : Fin 2048) (j : Fin 128) :
    cell X (ix2 p j)
      = Cert.Spec.cellOf (fun j => X (ix2 p (⟨j.val, by omega⟩ : Fin 384))) (fun j => X (ix2 p (⟨128 + j.val, by omega⟩ : Fin 384)))
          (fun j => X (ix2 p (⟨256 + j.val, by omega⟩ : Fin 384))) j := by
  unfold cell
  rw [shapeCast_self]
  show Ideal.logistic (extractStridedSlice S2048x128 ![0, 128] X Facts₀.slices_S2048x384_o0_128_S2048x128 (ix2 p j))
      * Ideal.tanh (Ideal.logistic (extractStridedSlice S2048x128 ![0, 0] X Facts₀.slices_S2048x384_o0_0_S2048x128 (ix2 p j))
        * Ideal.tanh (extractStridedSlice S2048x128 ![0, 256] X Facts₀.slices_S2048x384_o0_256_S2048x128 (ix2 p j))) = _
  rw [slice2_axis1_apply 128 X _ p j (⟨128 + j.val, by omega⟩ : Fin 384) rfl,
    slice2_axis1_apply 0 X _ p j (⟨j.val, by omega⟩ : Fin 384) (Nat.zero_add _).symm,
    slice2_axis1_apply 256 X _ p j (⟨256 + j.val, by omega⟩ : Fin 384) rfl]
  rfl

/-- A layer's payload is the cell of the fused gate rows. -/
theorem layer_apply (W : FVec Ideal S1x128x384 .bf16) (B : FVec Ideal S1x384 .f32) (h : FVec Ideal S2048x128 .f32)
    (p : Fin 2048) (j : Fin 128) :
    cell (lin W B h) (ix2 p j)
      = Cert.Spec.cellOf (fun j => (∑ k : Fin 128, h (ix2 p k) * W (ix3 (0 : Fin 1) k (⟨j.val, by omega⟩ : Fin 384))) + B (ix2 (0 : Fin 1) (⟨j.val, by omega⟩ : Fin 384)))
                           (fun j => (∑ k : Fin 128, h (ix2 p k) * W (ix3 (0 : Fin 1) k (⟨128 + j.val, by omega⟩ : Fin 384))) + B (ix2 (0 : Fin 1) (⟨128 + j.val, by omega⟩ : Fin 384)))
                           (fun j => (∑ k : Fin 128, h (ix2 p k) * W (ix3 (0 : Fin 1) k (⟨256 + j.val, by omega⟩ : Fin 384))) + B (ix2 (0 : Fin 1) (⟨256 + j.val, by omega⟩ : Fin 384))) j := by
  rw [cell_apply]
  simp only [lin_apply]

/-- The first layer's payload at (p, j). -/
theorem pay3_apply (v13 : Vec Ideal S1x128x384 .bf16) (v15 : Vec Ideal S1x384 .f32) (v36 : Vec Ideal S2048x128 .f32) (p : Fin 2048) (j : Fin 128) :
    k0_pay3 (F := Ideal) v13 v15 v36 (ix2 p j)
      = Cert.Spec.cellOf (fun j => (∑ k : Fin 128, v36 (ix2 p k) * v13 (ix3 (0 : Fin 1) k (⟨j.val, by omega⟩ : Fin 384))) + v15 (ix2 (0 : Fin 1) (⟨j.val, by omega⟩ : Fin 384)))
                           (fun j => (∑ k : Fin 128, v36 (ix2 p k) * v13 (ix3 (0 : Fin 1) k (⟨128 + j.val, by omega⟩ : Fin 384))) + v15 (ix2 (0 : Fin 1) (⟨128 + j.val, by omega⟩ : Fin 384)))
                           (fun j => (∑ k : Fin 128, v36 (ix2 p k) * v13 (ix3 (0 : Fin 1) k (⟨256 + j.val, by omega⟩ : Fin 384))) + v15 (ix2 (0 : Fin 1) (⟨256 + j.val, by omega⟩ : Fin 384))) j :=
  layer_apply v13 v15 v36 p j

/-- The second layer's payload at (p, j). -/
theorem pay4_apply (v19 : Vec Ideal S1x128x384 .bf16) (v21 : Vec Ideal S1x384 .f32) (v36 : Vec Ideal S2048x128 .f32) (p : Fin 2048) (j : Fin 128) :
    k0_pay4 (F := Ideal) v19 v21 v36 (ix2 p j)
      = Cert.Spec.cellOf (fun j => (∑ k : Fin 128, v36 (ix2 p k) * v19 (ix3 (0 : Fin 1) k (⟨j.val, by omega⟩ : Fin 384))) + v21 (ix2 (0 : Fin 1) (⟨j.val, by omega⟩ : Fin 384)))
                           (fun j => (∑ k : Fin 128, v36 (ix2 p k) * v19 (ix3 (0 : Fin 1) k (⟨128 + j.val, by omega⟩ : Fin 384))) + v21 (ix2 (0 : Fin 1) (⟨128 + j.val, by omega⟩ : Fin 384)))
                           (fun j => (∑ k : Fin 128, v36 (ix2 p k) * v19 (ix3 (0 : Fin 1) k (⟨256 + j.val, by omega⟩ : Fin 384))) + v21 (ix2 (0 : Fin 1) (⟨256 + j.val, by omega⟩ : Fin 384))) j :=
  layer_apply v19 v21 v36 p j

/-! ## The mean over a tree's nodes -/

/-- The source index over (a, j) with coordinate n on the node axis is (a, n, j). -/
theorem lift_node (h : S16x512x128.Reduces [(1 : Fin 3)] S16x128) (a : Fin 16) (j : Fin 128) (n : Fin 512) :
    h.lift (ix2 a j) n = ix3 a n j :=
  funext fun c => Fin.ext (by match c with | ⟨0, _⟩ => rfl | ⟨1, _⟩ => rfl | ⟨2, _⟩ => rfl)

/-- The sum over the node axis from the zero word, at (a, j): the sum of the 512 entries. -/
theorem nodeSum_apply (x : FVec Ideal S16x512x128 .f32) (h : S16x512x128.Reduces [(1 : Fin 3)] S16x128) (hφ : FKind.Formats .f32)
    (hacc : (0x00000000#32 : BitVec 32) = 0x00000000#32) (a : Fin 16) (j : Fin 128) :
    multiReduction .add [1] S16x128 x 0x00000000#32 h hφ hacc (ix2 a j) = ∑ n : Fin 512, x (ix3 a n j) := by
  refine (Ideal.multiReduction_add_single x 0x00000000#32 h hφ hacc (ix2 a j)).trans ?_
  exact Finset.sum_congr rfl fun n _ => congrArg x (lift_node h a j n)

/-- The mean's payload at (a, j): the sum over tree a's 512 rows of column j, divided by the float 512. -/
theorem pay15_apply (v25 : Vec Ideal S8192x128 .f32) (a : Fin 16) (j : Fin 128) :
    k0_pay1 (F := Ideal) (k0_pay5 v25) (ix2 a j)
      = Ideal.div (∑ n : Fin 512, v25 (ix2 (⟨512 * a.val + n.val, by omega⟩ : Fin 8192) j)) (Ideal.ofBits .f32 0x44000000#32) := by
  unfold k0_pay1 k0_pay5
  show Ideal.div (multiReduction (F := Ideal) .add [1] S16x128 (shapeCast S16x512x128 v25 Facts₀.shapeCasts_S8192x128_S16x512x128) 0x00000000#32
        Facts₀.reduces_S16x512x128_S16x128 (.inl rfl) rfl (ix2 a j)) (Ideal.ofBits .f32 0x44000000#32) = _
  rw [nodeSum_apply]
  refine congrArg (Ideal.div · (Ideal.ofBits .f32 0x44000000#32)) (Finset.sum_congr rfl fun n _ => ?_)
  exact unflatten_apply v25 _ a n _ rfl j

end Cert.Pay

end
-- ==== Proof.KernelRows.lean ====
/-
  The kernel's output block at the ideal instance, row by row. Every operation of a grid point acts on the rows
  of the scratch independently: row `512 a + n` is node `n` of the point's tree `a`. So the scratch row at the end
  is the second layer's cell of the first layer's cell of the node's embedding, each layer's three gate rows taken
  from the columns 0–127, 128–255 and 256–383 of the layer's slab of the fused gate matrix and bias; and an output
  entry is the sum of a tree's 512 rows divided by the float 512.
-/
import proofs.«111409_j34626026341055_2_alg».proof.Proof.Bands
import proofs.«111409_j34626026341055_2_alg».proof.Proof.Payload
import proofs.«111409_j34626026341055_2_alg».proof.Proof.Spec

set_option maxRecDepth 16384

noncomputable section

namespace Cert.KernelIdeal.Hand

open Idealize.ShloMosaic Idealize.ShloMosaic.TcCoe Idealize.ShloMosaic.ValueIdx
open Cert.KernelIdeal Cert.KernelIdeal.Gen

/-- Row `r` of the scratch. -/
def rowOf (S : Vec Ideal S8192x128 .f32) (r : Fin 8192) : Cert.Spec.Row := fun k => S (ix2 r k)

/-- A layer's cell of a hidden row, the gate rows cut from the layer's slab `W` of the fused matrix (columns 0–127 the
    input gate, 128–255 the output gate, 256–383 the candidate) and its slab `B` of the fused bias. -/
def slabCell (W : Vec Ideal S1x128x384 .bf16) (B : Vec Ideal S1x384 .f32) (h : Cert.Spec.Row) : Cert.Spec.Row :=
  Cert.Spec.cellOf (fun j => (∑ k : Fin 128, h k * W (ix3 (0 : Fin 1) k (⟨j.val, by omega⟩ : Fin 384))) + B (ix2 (0 : Fin 1) (⟨j.val, by omega⟩ : Fin 384)))
                   (fun j => (∑ k : Fin 128, h k * W (ix3 (0 : Fin 1) k (⟨128 + j.val, by omega⟩ : Fin 384))) + B (ix2 (0 : Fin 1) (⟨128 + j.val, by omega⟩ : Fin 384)))
                   (fun j => (∑ k : Fin 128, h k * W (ix3 (0 : Fin 1) k (⟨256 + j.val, by omega⟩ : Fin 384))) + B (ix2 (0 : Fin 1) (⟨256 + j.val, by omega⟩ : Fin 384)))

/-- The band-by-band map at (row, column): the band's function of the row's band, at the row within it. -/
theorem bandMap_apply_row {F : FTy → Type} [FloatOps F] (P : Vec F S2048x128 .f32 → FVec F S2048x128 .f32) (S : Vec F S8192x128 .f32) (r : Fin 8192) (j : Fin 128) :
    bandMap P S (ix2 r j) = P (fun x => S (ix2 (⟨2048 * (r.val / 2048) + (x 0).val, by have := r.isLt; have := idx2_lt0 x; omega⟩ : Fin 8192) (x 1)))
      (ix2 (⟨r.val % 2048, Nat.mod_lt _ (by decide)⟩ : Fin 2048) j) := rfl

/-- A row of the band is the row of the scratch it came from. -/
theorem band_row (S : Vec Ideal S8192x128 .f32) (r : Fin 8192) (k : Fin 128) :
    (fun x : S2048x128.Idx => S (ix2 (⟨2048 * (r.val / 2048) + (x 0).val, by have := r.isLt; have := idx2_lt0 x; omega⟩ : Fin 8192) (x 1)))
      (ix2 (⟨r.val % 2048, Nat.mod_lt _ (by decide)⟩ : Fin 2048) k) = S (ix2 r k) :=
  congrArg S (funext fun a => Fin.ext (by
    match a with
    | ⟨0, _⟩ => show 2048 * (r.val / 2048) + r.val % 2048 = r.val; omega
    | ⟨1, _⟩ => rfl))

/-- A layer applied band by band acts on each row by the layer's cell. -/
theorem row_bandMap3 (W : Vec Ideal S1x128x384 .bf16) (B : Vec Ideal S1x384 .f32) (S : Vec Ideal S8192x128 .f32) (r : Fin 8192) :
    rowOf (bandMap (k0_pay3 (F := Ideal) W B) S) r = slabCell W B (rowOf S r) := by
  funext j
  show bandMap (k0_pay3 (F := Ideal) W B) S (ix2 r j) = _
  rw [bandMap_apply_row]
  have hrow := band_row S r
  generalize (fun x : S2048x128.Idx => S (ix2 (⟨2048 * (r.val / 2048) + (x 0).val, by have := r.isLt; have := idx2_lt0 x; omega⟩ : Fin 8192) (x 1))) = v36 at hrow ⊢
  rw [Cert.Pay.pay3_apply]
  unfold slabCell rowOf
  simp only [hrow]

theorem row_bandMap4 (W : Vec Ideal S1x128x384 .bf16) (B : Vec Ideal S1x384 .f32) (S : Vec Ideal S8192x128 .f32) (r : Fin 8192) :
    rowOf (bandMap (k0_pay4 (F := Ideal) W B) S) r = slabCell W B (rowOf S r) := by
  funext j
  show bandMap (k0_pay4 (F := Ideal) W B) S (ix2 r j) = _
  rw [bandMap_apply_row]
  have hrow := band_row S r
  generalize (fun x : S2048x128.Idx => S (ix2 (⟨2048 * (r.val / 2048) + (x 0).val, by have := r.isLt; have := idx2_lt0 x; omega⟩ : Fin 8192) (x 1))) = v36 at hrow ⊢
  rw [Cert.Pay.pay4_apply]
  unfold slabCell rowOf
  simp only [hrow]

/-- The embedding's row `512 a + n` is the embedding of node `n` of the point's tree `a`. -/
theorem row_emb (x0 : Vec Ideal S16x512x64 .f32) (w0 : Vec Ideal S64x128 .bf16) (b0 : Vec Ideal S128 .f32) (a : Fin 16) (n : Fin 512) :
    rowOf (k0_pay2 (F := Ideal) x0 w0 b0) (⟨512 * a.val + n.val, by omega⟩ : Fin 8192)
      = Cert.Spec.embRow (fun f => x0 (ix3 a n f)) (fun f j => w0 (ix2 f j)) (fun j => b0 (ix1 j)) :=
  funext fun j => Cert.Pay.pay2_apply x0 w0 b0 a n j

/-- A slab of a resident operand at its own indices is the operand at the layer's. -/
theorem wSl0_apply (wf : Vec Ideal S2x128x384 .bf16) (k : Fin 128) (q : Fin 384) : wSl0 wf (ix3 (0 : Fin 1) k q) = wf (ix3 (0 : Fin 2) k q) :=
  congrArg wf (funext fun a => Fin.ext (by match a with | ⟨0, _⟩ => rfl | ⟨1, _⟩ => show 0 + 1 * k.val = k.val; omega | ⟨2, _⟩ => show 0 + 1 * q.val = q.val; omega))
theorem wSl1_apply (wf : Vec Ideal S2x128x384 .bf16) (k : Fin 128) (q : Fin 384) : wSl1 wf (ix3 (0 : Fin 1) k q) = wf (ix3 (1 : Fin 2) k q) :=
  congrArg wf (funext fun a => Fin.ext (by match a with | ⟨0, _⟩ => rfl | ⟨1, _⟩ => show 0 + 1 * k.val = k.val; omega | ⟨2, _⟩ => show 0 + 1 * q.val = q.val; omega))
theorem bSl0_apply (bf : Vec Ideal S2x384 .f32) (q : Fin 384) : bSl0 bf (ix2 (0 : Fin 1) q) = bf (ix2 (0 : Fin 2) q) :=
  congrArg bf (funext fun a => Fin.ext (by match a with | ⟨0, _⟩ => rfl | ⟨1, _⟩ => show 0 + 1 * q.val = q.val; omega))
theorem bSl1_apply (bf : Vec Ideal S2x384 .f32) (q : Fin 384) : bSl1 bf (ix2 (0 : Fin 1) q) = bf (ix2 (1 : Fin 2) q) :=
  congrArg bf (funext fun a => Fin.ext (by match a with | ⟨0, _⟩ => rfl | ⟨1, _⟩ => show 0 + 1 * q.val = q.val; omega))

/-- The output block's entry (tree `a`, column `j`): the mean over the tree's nodes of the second cell of the first cell
    of the node's embedding. -/
theorem out_apply (x0 : Vec Ideal S16x512x64 .f32) (w0 : Vec Ideal S64x128 .bf16) (b0 : Vec Ideal S128 .f32) (wf : Vec Ideal S2x128x384 .bf16) (bf : Vec Ideal S2x384 .f32)
    (a : Fin 16) (j : Fin 128) :
    k0_pay1 (F := Ideal) (k0_pay5 (scratchEnd x0 w0 b0 wf bf)) (ix2 a j)
      = Ideal.div (∑ n : Fin 512, slabCell (wSl1 wf) (bSl1 bf) (slabCell (wSl0 wf) (bSl0 bf)
          (Cert.Spec.embRow (fun f => x0 (ix3 a n f)) (fun f j => w0 (ix2 f j)) (fun j => b0 (ix1 j)))) j) (Ideal.ofBits .f32 0x44000000#32) := by
  rw [Cert.Pay.pay15_apply]
  refine congrArg (fun s => Ideal.div s _) (Finset.sum_congr rfl fun n _ => ?_)
  show rowOf (scratchEnd x0 w0 b0 wf bf) (⟨512 * a.val + n.val, by omega⟩ : Fin 8192) j = _
  unfold scratchEnd
  rw [row_bandMap4, row_bandMap3, row_emb]

end Cert.KernelIdeal.Hand

end
-- ==== Proof.Blocks.lean ====
/-
  From the blocks to the arrays, for the idealized kernel program. The arrays the host lines write before the region, as
  terms of the argument arrays: the embedding matrix as launched (a cast to a narrower format is the identity on the
  extended reals), the fused gate matrices as the three gate matrices side by side, the fused biases as the three
  sums of a gate's two bias rows side by side. Each parameter window's block is its whole array at every point; the
  feature window's block at point `t` is the sixteen trees `16 t … 16 t + 15`; the output window's block at point `t`
  is the same sixteen rows of the result array, and the sixteen blocks cover it, so the result array ends holding
  any function whose rows `16 t … 16 t + 15` the body leaves in the block at every point `t`.
-/
import proofs.«111409_j34626026341055_2_alg».proof.Proof.IdealBody
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀
open Idealize.ShloMosaic.ValueIdx Idealize.ShloMosaic.StableHlo

variable (m : (ℓ : Loc nD τ sig) → Buf (Elt Ideal) ℓ)

/-! ## The arrays the host lines wrote before the region -/

/-- The embedding matrix as the region finds it: the cast to the narrower format changes no value. -/
theorem V_v0 (c : Dev nD) :
    (V m c main_v0 : S64x128.Idx → EReal) = (m ((c : Thread nD τ).loc main_arg1) : S64x128.Idx → EReal) := by
  dsimp only [V, hostOps0]
  after_results
  rfl

/-- The fused gate matrices as the region finds them: the three stacked gate matrices side by side along the last
    axis (the cast changes no value). -/
theorem V_v2 (c : Dev nD) :
    (V m c main_v2 : S2x128x384.Idx → EReal)
      = concatenate S2x128x384 2 [⟨S2x128x128, m ((c : Thread nD τ).loc main_arg3)⟩, ⟨S2x128x128, m ((c : Thread nD τ).loc main_arg4)⟩,
          ⟨S2x128x128, m ((c : Thread nD τ).loc main_arg5)⟩] Facts₀.concatenates_S2x128x128_S2x128x128_S2x128x128_S2x128x384_d2 := by
  dsimp only [V, hostOps0]
  after_results
  rfl

/-- The fused gate biases as the region finds them: each gate's two bias rows added, the three sums side by side. -/
theorem V_v6 (c : Dev nD) :
    (V m c main_v6 : S2x384.Idx → EReal)
      = concatenate S2x384 1
          [⟨S2x128, addf (F := Ideal) (s := S2x128) (φ := .f32) (m ((c : Thread nD τ).loc main_arg6)) (m ((c : Thread nD τ).loc main_arg7))⟩,
           ⟨S2x128, addf (F := Ideal) (s := S2x128) (φ := .f32) (m ((c : Thread nD τ).loc main_arg8)) (m ((c : Thread nD τ).loc main_arg9))⟩,
           ⟨S2x128, addf (F := Ideal) (s := S2x128) (φ := .f32) (m ((c : Thread nD τ).loc main_arg10)) (m ((c : Thread nD τ).loc main_arg11))⟩]
          Facts₀.concatenates_S2x128_S2x128_S2x128_S2x384_d1 := by
  dsimp only [V, hostOps0]
  after_results
  rfl

/-! ## The input blocks

  A block's element at coordinates `y` sits in the array, on each axis, at the block index times the block's size
  plus `y`'s coordinate. The four parameter windows' block is the whole array at block index 0 at every point; the
  feature window's block at point `t` is trees `16 t … 16 t + 15`. -/

/-- The block indices, decided over the grid: the feature window's first index is the point, every other index 0. -/
theorem idx_in : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- The embedding matrix's block is the whole matrix, at every point. -/
theorem iblk1 (c : Dev nD) (t : Fin cfg0.N) :
    (iblk m c 1 t : S64x128.Idx → EReal) = (V m c main_v0 : S64x128.Idx → EReal) := by
  obtain ⟨-, -, -, e0, e1, -⟩ := idx_in t
  funext j
  unfold iblk
  rw [View.read_apply]
  show V m c main_v0 (((cfg0.win 1).blk t).view.emb j) = V m c main_v0 j
  refine congrArg (V m c main_v0) (funext fun a => Fin.ext ?_)
  match a with
  | ⟨0, _⟩ => show win0_1.index t (0 : Fin 2) * 64 + 1 * (j 0).val = (j 0).val; omega
  | ⟨1, _⟩ => show win0_1.index t (1 : Fin 2) * 128 + 1 * (j 1).val = (j 1).val; omega

/-- The embedding bias's block is the whole row, at every point. -/
theorem iblk2 (c : Dev nD) (t : Fin cfg0.N) :
    (iblk m c 2 t : S128.Idx → EReal) = (m ((c : Thread nD τ).loc main_arg2) : S128.Idx → EReal) := by
  obtain ⟨-, -, -, -, -, e0, -⟩ := idx_in t
  funext j
  unfold iblk
  rw [View.read_apply]
  show V m c main_arg2 (((cfg0.win 2).blk t).view.emb j) = m ((c : Thread nD τ).loc main_arg2) j
  rw [V_main_arg2]
  refine congrArg (m ((c : Thread nD τ).loc main_arg2)) (funext fun a => Fin.ext ?_)
  match a with
  | ⟨0, _⟩ => show win0_2.index t (0 : Fin 1) * 128 + 1 * (j 0).val = (j 0).val; omega

/-- The fused gate matrices' block is the whole array, at every point. -/
theorem iblk3 (c : Dev nD) (t : Fin cfg0.N) :
    (iblk m c 3 t : S2x128x384.Idx → EReal) = (V m c main_v2 : S2x128x384.Idx → EReal) := by
  obtain ⟨-, -, -, -, -, -, e0, e1, e2, -⟩ := idx_in t
  funext j
  unfold iblk
  rw [View.read_apply]
  show V m c main_v2 (((cfg0.win 3).blk t).view.emb j) = V m c main_v2 j
  refine congrArg (V m c main_v2) (funext fun a => Fin.ext ?_)
  match a with
  | ⟨0, _⟩ => show win0_3.index t (0 : Fin 3) * 2 + 1 * (j 0).val = (j 0).val; omega
  | ⟨1, _⟩ => show win0_3.index t (1 : Fin 3) * 128 + 1 * (j 1).val = (j 1).val; omega
  | ⟨2, _⟩ => show win0_3.index t (2 : Fin 3) * 384 + 1 * (j 2).val = (j 2).val; omega

/-- The fused gate biases' block is the whole array, at every point. -/
theorem iblk4 (c : Dev nD) (t : Fin cfg0.N) :
    (iblk m c 4 t : S2x384.Idx → EReal) = (V m c main_v6 : S2x384.Idx → EReal) := by
  obtain ⟨-, -, -, -, -, -, -, -, -, e0, e1⟩ := idx_in t
  funext j
  unfold iblk
  rw [View.read_apply]
  show V m c main_v6 (((cfg0.win 4).blk t).view.emb j) = V m c main_v6 j
  refine congrArg (V m c main_v6) (funext fun a => Fin.ext ?_)
  match a with
  | ⟨0, _⟩ => show win0_4.index t (0 : Fin 2) * 2 + 1 * (j 0).val = (j 0).val; omega
  | ⟨1, _⟩ => show win0_4.index t (1 : Fin 2) * 384 + 1 * (j 1).val = (j 1).val; omega

/-- The feature block at point `t`, at tree `a` of the block, node `n`, feature `f`: the features of tree `16 t + a`. -/
theorem iblk0_apply (c : Dev nD) (t : Fin cfg0.N) (a : Fin 16) (n : Fin 512) (f : Fin 64) :
    (iblk m c 0 t : S16x512x64.Idx → EReal) (ix3 a n f)
      = (m ((c : Thread nD τ).loc main_arg0) : S256x512x64.Idx → EReal)
          (ix3 (⟨16 * t.val + a.val, by have hN : cfg0.N = 16 := N_0; have := t.isLt; omega⟩ : Fin 256) n f) := by
  obtain ⟨e0, e1, e2, -⟩ := idx_in t
  unfold iblk
  rw [View.read_apply]
  show V m c main_arg0 (((cfg0.win 0).blk t).view.emb (ix3 a n f)) = m ((c : Thread nD τ).loc main_arg0) _
  rw [V_main_arg0]
  refine congrArg (m ((c : Thread nD τ).loc main_arg0)) (funext fun d => Fin.ext ?_)
  match d with
  | ⟨0, _⟩ => show win0_0.index t (0 : Fin 3) * 16 + 1 * a.val = 16 * t.val + a.val; omega
  | ⟨1, _⟩ => show win0_0.index t (1 : Fin 3) * 512 + 1 * n.val = n.val; omega
  | ⟨2, _⟩ => show win0_0.index t (2 : Fin 3) * 64 + 1 * f.val = f.val; omega

/-! ## The output block and the array after the run

  Point `t` writes back trees `16 t … 16 t + 15`; tree `r` is in the block of point `r / 16`, so the sixteen blocks
  cover the result array. -/

/-- The output window's block indices, decided over the grid: the point, and 0. -/
theorem idx_out : ∀ t : Fin cfg0.N, win0_5.index t (0 : Fin 2) = t.val ∧ win0_5.index t (1 : Fin 2) = 0 :=
  (by decide +kernel : ∀ t : Fin grid0.N, _)

/-- Where the output block's element `j` sits in the result array: tree `16 t + j₀`, column `j₁`. -/
theorem emb5 (t : Fin cfg0.N) (j : S16x128.Idx) :
    (((cfg0.win 5).blk t).view.emb j : S256x128.Idx)
      = ix2 (⟨16 * t.val + (j 0).val, by
          have hN : cfg0.N = 16 := N_0; have := t.isLt; have hj : (j 0).val < 16 := (j 0).isLt; omega⟩ : Fin 256) (j 1) := by
  obtain ⟨e0, e1⟩ := idx_out t
  funext a
  apply Fin.ext
  match a with
  | ⟨0, _⟩ => show win0_5.index t (0 : Fin 2) * 16 + 1 * (j 0).val = 16 * t.val + (j 0).val; omega
  | ⟨1, _⟩ => show win0_5.index t (1 : Fin 2) * 128 + 1 * (j 1).val = (j 1).val; omega

/-- An index of the result array is in point `t`'s block iff each coordinate is in the block's range on its axis. -/
theorem mem_blk5 (t : Fin cfg0.N) (i : S256x128.Idx) :
    i ∈ ((cfg0.win 5).blk t).view.set
      ↔ ∀ a : Fin 2, win0_5.index t a * S16x128.size a ≤ (i a).val ∧ (i a).val < win0_5.index t a * S16x128.size a + S16x128.size a := by
  show i ∈ ((View.whole main_v7).slice (win0_5.rect t)).set ↔ _
  rw [View.set_slice_whole, Rect.mem_set_unit]
  exact Iff.rfl

/-- Every index of the result array is in the block some point writes back: row `r` in that of point `r / 16`. -/
theorem cover5arr (i : S256x128.Idx) :
    ∃ t : Fin cfg0.N, (cfg0.win 5).flush t = true ∧ i ∈ ((cfg0.win 5).blk t).view.set := by
  have hN : cfg0.N = 16 := N_0
  have h0 : (i 0).val < 256 := (i 0).isLt
  have h1 : (i 1).val < 128 := (i 1).isLt
  obtain ⟨t, ht⟩ : ∃ t : Fin cfg0.N, t.val = (i 0).val / 16 := ⟨⟨(i 0).val / 16, by omega⟩, rfl⟩
  obtain ⟨e0, e1⟩ := idx_out t
  refine ⟨t, flush0_5 t, ?_⟩
  rw [mem_blk5]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 128 ≤ (i 1).val ∧ (i 1).val < win0_5.index t (1 : Fin 2) * 128 + 128; omega

/-- If at every point the body leaves in the output block the rows `16 t … 16 t + 15` of one function `G` on the
    result array's indices, the result array ends holding `G`. -/
theorem final5 (c : Dev nD) (G : S256x128.Idx → EReal)
    (hG : ∀ (t : Fin cfg0.N) (a : Fin 16) (j : Fin 128),
      ((dats m 0 c).after 5 t : S16x128.Idx → EReal) (ix2 a j)
        = G (ix2 (⟨16 * t.val + a.val, by have hN : cfg0.N = 16 := N_0; have := t.isLt; omega⟩ : Fin 256) j)) :
    ((dats m 0 c).arrAt 5 cfg0.N : S256x128.Idx → EReal) = G :=
  (dats m 0 c).arrAt_eq_of_cover 5 G (fun t _ => by
    show (cfg0.win 5).cut (grid0.coords t) ((dats m 0 c).after 5 t) = _
    funext j
    rw [View.read_apply]
    show ((dats m 0 c).after 5 t : S16x128.Idx → EReal) j = G (((cfg0.win 5).blk t).view.emb j)
    rw [emb5 t j]
    exact (congrArg ((dats m 0 c).after 5 t : S16x128.Idx → EReal) (eq_ix2 j)).trans (hG t (j 0) (j 1))) cover5arr

end Cert.KernelIdeal.Hand

end
-- ==== Proof.Weights.lean ====
/-
  The two fused operands the host builds before the kernel, read at an index, over the extended reals.

  The fused matrix of a layer is the three gate matrices side by side along the last axis, input gate first, then
  output gate, then candidate: column o·128 + j of the fused matrix is column j of gate o's matrix (the change of
  format is the identity). The fused bias likewise holds, at o·128 + j, the sum of gate o's two biases at j.

  So a layer's cell computed from the fused operands, gate o read at columns o·128 + j, is the layer of the three
  separate gates, each with its two biases added first.
-/
import proofs.«111409_j34626026341055_2_alg».proof.KernelIdeal
import proofs.«111409_j34626026341055_2_alg».proof.Proof.Spec
import Idealize.ShloMosaic.Lib.Pipeline.Value
import Idealize.ShloMosaic.Lib.ValueIdx
import Idealize.ShloMosaic.PureOps.Ideal

noncomputable section

namespace Cert.Wts

open Idealize.ShloMosaic Idealize.ShloMosaic.ValueIdx Cert.KernelIdeal

variable [Cert.KernelIdeal.Facts]

/-! ## Three pieces side by side, read at an index -/

section Cat
variable {α : Type}

/-- Three [2, 128, 128] arrays side by side along the last axis: a column below 128 is in the first. -/
theorem cat3_fst (x₀ x₁ x₂ : S2x128x128.Idx → α) (h : Shape.Concatenates [S2x128x128, S2x128x128, S2x128x128] S2x128x384 2)
    (l : Fin 2) (k j : Fin 128) (c : Fin 384) (hc : c.val = j.val) :
    concatenate S2x128x384 2 [⟨S2x128x128, x₀⟩, ⟨S2x128x128, x₁⟩, ⟨S2x128x128, x₂⟩] h (ix3 l k c) = x₀ (ix3 l k j) :=
  concatenate_apply_piece (t := S2x128x384) 2 [⟨S2x128x128, x₀⟩, ⟨S2x128x128, x₁⟩, ⟨S2x128x128, x₂⟩] h (ix3 l k c) 0 (by show (0 : ℕ) < 3; decide) S2x128x128 x₀ rfl rfl 0 rfl (ix3 l k j)
    (fun b hb => by match b, hb with | ⟨0, _⟩, _ => rfl | ⟨1, _⟩, _ => rfl | ⟨2, _⟩, hb => exact absurd rfl hb)
    (by show 0 + j.val = c.val; omega)

/-- A column 128 + j is column j of the second. -/
theorem cat3_snd (x₀ x₁ x₂ : S2x128x128.Idx → α) (h : Shape.Concatenates [S2x128x128, S2x128x128, S2x128x128] S2x128x384 2)
    (l : Fin 2) (k j : Fin 128) (c : Fin 384) (hc : c.val = 128 + j.val) :
    concatenate S2x128x384 2 [⟨S2x128x128, x₀⟩, ⟨S2x128x128, x₁⟩, ⟨S2x128x128, x₂⟩] h (ix3 l k c) = x₁ (ix3 l k j) :=
  concatenate_apply_piece (t := S2x128x384) 2 [⟨S2x128x128, x₀⟩, ⟨S2x128x128, x₁⟩, ⟨S2x128x128, x₂⟩] h (ix3 l k c) 1 (by show (1 : ℕ) < 3; decide) S2x128x128 x₁ rfl rfl 128 rfl (ix3 l k j)
    (fun b hb => by match b, hb with | ⟨0, _⟩, _ => rfl | ⟨1, _⟩, _ => rfl | ⟨2, _⟩, hb => exact absurd rfl hb)
    (by show 128 + j.val = c.val; omega)

/-- A column 256 + j is column j of the third. -/
theorem cat3_trd (x₀ x₁ x₂ : S2x128x128.Idx → α) (h : Shape.Concatenates [S2x128x128, S2x128x128, S2x128x128] S2x128x384 2)
    (l : Fin 2) (k j : Fin 128) (c : Fin 384) (hc : c.val = 256 + j.val) :
    concatenate S2x128x384 2 [⟨S2x128x128, x₀⟩, ⟨S2x128x128, x₁⟩, ⟨S2x128x128, x₂⟩] h (ix3 l k c) = x₂ (ix3 l k j) :=
  concatenate_apply_piece (t := S2x128x384) 2 [⟨S2x128x128, x₀⟩, ⟨S2x128x128, x₁⟩, ⟨S2x128x128, x₂⟩] h (ix3 l k c) 2 (by show (2 : ℕ) < 3; decide) S2x128x128 x₂ rfl rfl 256 rfl (ix3 l k j)
    (fun b hb => by match b, hb with | ⟨0, _⟩, _ => rfl | ⟨1, _⟩, _ => rfl | ⟨2, _⟩, hb => exact absurd rfl hb)
    (by show 256 + j.val = c.val; omega)

/-- Three [2, 128] arrays side by side along the last axis: a column below 128 is in the first. -/
theorem cat2_fst (x₀ x₁ x₂ : S2x128.Idx → α) (h : Shape.Concatenates [S2x128, S2x128, S2x128] S2x384 1)
    (l : Fin 2) (j : Fin 128) (c : Fin 384) (hc : c.val = j.val) :
    concatenate S2x384 1 [⟨S2x128, x₀⟩, ⟨S2x128, x₁⟩, ⟨S2x128, x₂⟩] h (ix2 l c) = x₀ (ix2 l j) :=
  concatenate_apply_piece (t := S2x384) 1 [⟨S2x128, x₀⟩, ⟨S2x128, x₁⟩, ⟨S2x128, x₂⟩] h (ix2 l c) 0 (by show (0 : ℕ) < 3; decide) S2x128 x₀ rfl rfl 0 rfl (ix2 l j)
    (fun b hb => by match b, hb with | ⟨0, _⟩, _ => rfl | ⟨1, _⟩, hb => exact absurd rfl hb)
    (by show 0 + j.val = c.val; omega)

/-- A column 128 + j is column j of the second. -/
theorem cat2_snd (x₀ x₁ x₂ : S2x128.Idx → α) (h : Shape.Concatenates [S2x128, S2x128, S2x128] S2x384 1)
    (l : Fin 2) (j : Fin 128) (c : Fin 384) (hc : c.val = 128 + j.val) :
    concatenate S2x384 1 [⟨S2x128, x₀⟩, ⟨S2x128, x₁⟩, ⟨S2x128, x₂⟩] h (ix2 l c) = x₁ (ix2 l j) :=
  concatenate_apply_piece (t := S2x384) 1 [⟨S2x128, x₀⟩, ⟨S2x128, x₁⟩, ⟨S2x128, x₂⟩] h (ix2 l c) 1 (by show (1 : ℕ) < 3; decide) S2x128 x₁ rfl rfl 128 rfl (ix2 l j)
    (fun b hb => by match b, hb with | ⟨0, _⟩, _ => rfl | ⟨1, _⟩, hb => exact absurd rfl hb)
    (by show 128 + j.val = c.val; omega)

/-- A column 256 + j is column j of the third. -/
theorem cat2_trd (x₀ x₁ x₂ : S2x128.Idx → α) (h : Shape.Concatenates [S2x128, S2x128, S2x128] S2x384 1)
    (l : Fin 2) (j : Fin 128) (c : Fin 384) (hc : c.val = 256 + j.val) :
    concatenate S2x384 1 [⟨S2x128, x₀⟩, ⟨S2x128, x₁⟩, ⟨S2x128, x₂⟩] h (ix2 l c) = x₂ (ix2 l j) :=
  concatenate_apply_piece (t := S2x384) 1 [⟨S2x128, x₀⟩, ⟨S2x128, x₁⟩, ⟨S2x128, x₂⟩] h (ix2 l c) 2 (by show (2 : ℕ) < 3; decide) S2x128 x₂ rfl rfl 256 rfl (ix2 l j)
    (fun b hb => by match b, hb with | ⟨0, _⟩, _ => rfl | ⟨1, _⟩, hb => exact absurd rfl hb)
    (by show 256 + j.val = c.val; omega)

end Cat

/-! ## The fused operands -/

/-- The fused matrices: the three gates' matrices side by side, in the kernel's operand format. -/
def Wcat (x3 x4 x5 : Vec Ideal S2x128x128 .f32) (h : Shape.Concatenates [S2x128x128, S2x128x128, S2x128x128] S2x128x384 2) :
    Vec Ideal S2x128x384 .bf16 :=
  truncf .bf16 (concatenate S2x128x384 2 [⟨S2x128x128, x3⟩, ⟨S2x128x128, x4⟩, ⟨S2x128x128, x5⟩] h : FVec Ideal S2x128x384 .f32)
    Facts₀.bitsLt_bf16_f32

/-- The fused biases: each gate's two biases added, the three sums side by side. -/
def bcat (x6 x7 x8 x9 x10 x11 : Vec Ideal S2x128 .f32) (h : Shape.Concatenates [S2x128, S2x128, S2x128] S2x384 1) :
    Vec Ideal S2x384 .f32 :=
  concatenate S2x384 1 [⟨S2x128, (addf x6 x7 : FVec Ideal S2x128 .f32)⟩, ⟨S2x128, (addf x8 x9 : FVec Ideal S2x128 .f32)⟩,
    ⟨S2x128, (addf x10 x11 : FVec Ideal S2x128 .f32)⟩] h

/-! ## The fused operands at an index -/

/-- The fused matrix at column j is the input gate's matrix at column j. -/
theorem Wcat_i (x3 x4 x5 : Vec Ideal S2x128x128 .f32) (h3 : Shape.Concatenates [S2x128x128, S2x128x128, S2x128x128] S2x128x384 2)
    (l : Fin 2) (k j : Fin 128) (c : Fin 384) (hc : c.val = j.val) :
    Wcat x3 x4 x5 h3 (ix3 l k c) = x3 (ix3 l k j) :=
  cat3_fst x3 x4 x5 h3 l k j c hc

/-- The fused bias at column j is the sum of the input gate's two biases at j. -/
theorem bcat_i (x6 x7 x8 x9 x10 x11 : Vec Ideal S2x128 .f32) (h2 : Shape.Concatenates [S2x128, S2x128, S2x128] S2x384 1)
    (l : Fin 2) (j : Fin 128) (c : Fin 384) (hc : c.val = j.val) :
    bcat x6 x7 x8 x9 x10 x11 h2 (ix2 l c) = x6 (ix2 l j) + x7 (ix2 l j) :=
  cat2_fst (addf x6 x7 : FVec Ideal S2x128 .f32) (addf x8 x9 : FVec Ideal S2x128 .f32) (addf x10 x11 : FVec Ideal S2x128 .f32) h2 l j c hc

/-- The fused matrix at column 128 + j is the output gate's matrix at column j. -/
theorem Wcat_o (x3 x4 x5 : Vec Ideal S2x128x128 .f32) (h3 : Shape.Concatenates [S2x128x128, S2x128x128, S2x128x128] S2x128x384 2)
    (l : Fin 2) (k j : Fin 128) (c : Fin 384) (hc : c.val = 128 + j.val) :
    Wcat x3 x4 x5 h3 (ix3 l k c) = x4 (ix3 l k j) :=
  cat3_snd x3 x4 x5 h3 l k j c hc

/-- The fused bias at column 128 + j is the sum of the output gate's two biases at j. -/
theorem bcat_o (x6 x7 x8 x9 x10 x11 : Vec Ideal S2x128 .f32) (h2 : Shape.Concatenates [S2x128, S2x128, S2x128] S2x384 1)
    (l : Fin 2) (j : Fin 128) (c : Fin 384) (hc : c.val = 128 + j.val) :
    bcat x6 x7 x8 x9 x10 x11 h2 (ix2 l c) = x8 (ix2 l j) + x9 (ix2 l j) :=
  cat2_snd (addf x6 x7 : FVec Ideal S2x128 .f32) (addf x8 x9 : FVec Ideal S2x128 .f32) (addf x10 x11 : FVec Ideal S2x128 .f32) h2 l j c hc

/-- The fused matrix at column 256 + j is the candidate's matrix at column j. -/
theorem Wcat_c (x3 x4 x5 : Vec Ideal S2x128x128 .f32) (h3 : Shape.Concatenates [S2x128x128, S2x128x128, S2x128x128] S2x128x384 2)
    (l : Fin 2) (k j : Fin 128) (c : Fin 384) (hc : c.val = 256 + j.val) :
    Wcat x3 x4 x5 h3 (ix3 l k c) = x5 (ix3 l k j) :=
  cat3_trd x3 x4 x5 h3 l k j c hc

/-- The fused bias at column 256 + j is the sum of the candidate's two biases at j. -/
theorem bcat_c (x6 x7 x8 x9 x10 x11 : Vec Ideal S2x128 .f32) (h2 : Shape.Concatenates [S2x128, S2x128, S2x128] S2x384 1)
    (l : Fin 2) (j : Fin 128) (c : Fin 384) (hc : c.val = 256 + j.val) :
    bcat x6 x7 x8 x9 x10 x11 h2 (ix2 l c) = x10 (ix2 l j) + x11 (ix2 l j) :=
  cat2_trd (addf x6 x7 : FVec Ideal S2x128 .f32) (addf x8 x9 : FVec Ideal S2x128 .f32) (addf x10 x11 : FVec Ideal S2x128 .f32) h2 l j c hc

/-! ## A layer from the fused operands -/

/-- The input gate's row from the fused operands is its row from its own matrix and two biases. -/
theorem gate_i (x3 x4 x5 : Vec Ideal S2x128x128 .f32) (x6 x7 x8 x9 x10 x11 : Vec Ideal S2x128 .f32)
    (h3 : Shape.Concatenates [S2x128x128, S2x128x128, S2x128x128] S2x128x384 2) (h2 : Shape.Concatenates [S2x128, S2x128, S2x128] S2x384 1) (l : Fin 2) (h : Cert.Spec.Row) :
    (fun j : Fin 128 => (∑ k : Fin 128, h k * Wcat x3 x4 x5 h3 (ix3 l k (⟨j.val, by omega⟩ : Fin 384))) + bcat x6 x7 x8 x9 x10 x11 h2 (ix2 l (⟨j.val, by omega⟩ : Fin 384)))
      = Cert.Spec.gateRow h (Cert.Spec.matOf x3 l) (Cert.Spec.biasOf x6 l) (Cert.Spec.biasOf x7 l) := by
  rw [← Cert.Spec.gateRow'_eq]
  funext j
  show _ = (∑ k : Fin 128, h k * x3 (ix3 l k j)) + (x6 (ix2 l j) + x7 (ix2 l j))
  rw [bcat_i x6 x7 x8 x9 x10 x11 h2 l j _ rfl]
  exact congrArg (· + (x6 (ix2 l j) + x7 (ix2 l j))) (Finset.sum_congr rfl fun k _ => by rw [Wcat_i x3 x4 x5 h3 l k j _ rfl])

/-- The output gate's row from the fused operands is its row from its own matrix and two biases. -/
theorem gate_o (x3 x4 x5 : Vec Ideal S2x128x128 .f32) (x6 x7 x8 x9 x10 x11 : Vec Ideal S2x128 .f32)
    (h3 : Shape.Concatenates [S2x128x128, S2x128x128, S2x128x128] S2x128x384 2) (h2 : Shape.Concatenates [S2x128, S2x128, S2x128] S2x384 1) (l : Fin 2) (h : Cert.Spec.Row) :
    (fun j : Fin 128 => (∑ k : Fin 128, h k * Wcat x3 x4 x5 h3 (ix3 l k (⟨128 + j.val, by omega⟩ : Fin 384))) + bcat x6 x7 x8 x9 x10 x11 h2 (ix2 l (⟨128 + j.val, by omega⟩ : Fin 384)))
      = Cert.Spec.gateRow h (Cert.Spec.matOf x4 l) (Cert.Spec.biasOf x8 l) (Cert.Spec.biasOf x9 l) := by
  rw [← Cert.Spec.gateRow'_eq]
  funext j
  show _ = (∑ k : Fin 128, h k * x4 (ix3 l k j)) + (x8 (ix2 l j) + x9 (ix2 l j))
  rw [bcat_o x6 x7 x8 x9 x10 x11 h2 l j _ rfl]
  exact congrArg (· + (x8 (ix2 l j) + x9 (ix2 l j))) (Finset.sum_congr rfl fun k _ => by rw [Wcat_o x3 x4 x5 h3 l k j _ rfl])

/-- The candidate's row from the fused operands is its row from its own matrix and two biases. -/
theorem gate_c (x3 x4 x5 : Vec Ideal S2x128x128 .f32) (x6 x7 x8 x9 x10 x11 : Vec Ideal S2x128 .f32)
    (h3 : Shape.Concatenates [S2x128x128, S2x128x128, S2x128x128] S2x128x384 2) (h2 : Shape.Concatenates [S2x128, S2x128, S2x128] S2x384 1) (l : Fin 2) (h : Cert.Spec.Row) :
    (fun j : Fin 128 => (∑ k : Fin 128, h k * Wcat x3 x4 x5 h3 (ix3 l k (⟨256 + j.val, by omega⟩ : Fin 384))) + bcat x6 x7 x8 x9 x10 x11 h2 (ix2 l (⟨256 + j.val, by omega⟩ : Fin 384)))
      = Cert.Spec.gateRow h (Cert.Spec.matOf x5 l) (Cert.Spec.biasOf x10 l) (Cert.Spec.biasOf x11 l) := by
  rw [← Cert.Spec.gateRow'_eq]
  funext j
  show _ = (∑ k : Fin 128, h k * x5 (ix3 l k j)) + (x10 (ix2 l j) + x11 (ix2 l j))
  rw [bcat_c x6 x7 x8 x9 x10 x11 h2 l j _ rfl]
  exact congrArg (· + (x10 (ix2 l j) + x11 (ix2 l j))) (Finset.sum_congr rfl fun k _ => by rw [Wcat_c x3 x4 x5 h3 l k j _ rfl])

/-- The cell of the three gate rows read off the fused operands is the layer of the three separate gates. -/
theorem layer_bridge (x3 x4 x5 : Vec Ideal S2x128x128 .f32) (x6 x7 x8 x9 x10 x11 : Vec Ideal S2x128 .f32)
    (h3 : Shape.Concatenates [S2x128x128, S2x128x128, S2x128x128] S2x128x384 2) (h2 : Shape.Concatenates [S2x128, S2x128, S2x128] S2x384 1) (l : Fin 2) (h : Cert.Spec.Row) :
    Cert.Spec.cellOf
        (fun j => (∑ k : Fin 128, h k * Wcat x3 x4 x5 h3 (ix3 l k (⟨j.val, by omega⟩ : Fin 384))) + bcat x6 x7 x8 x9 x10 x11 h2 (ix2 l (⟨j.val, by omega⟩ : Fin 384)))
        (fun j => (∑ k : Fin 128, h k * Wcat x3 x4 x5 h3 (ix3 l k (⟨128 + j.val, by omega⟩ : Fin 384))) + bcat x6 x7 x8 x9 x10 x11 h2 (ix2 l (⟨128 + j.val, by omega⟩ : Fin 384)))
        (fun j => (∑ k : Fin 128, h k * Wcat x3 x4 x5 h3 (ix3 l k (⟨256 + j.val, by omega⟩ : Fin 384))) + bcat x6 x7 x8 x9 x10 x11 h2 (ix2 l (⟨256 + j.val, by omega⟩ : Fin 384)))
      = Cert.Spec.layer x3 x4 x5 x6 x7 x8 x9 x10 x11 l h := by
  unfold Cert.Spec.layer
  exact congr (congr (congrArg Cert.Spec.cellOf (gate_i x3 x4 x5 x6 x7 x8 x9 x10 x11 h3 h2 l h))
    (gate_o x3 x4 x5 x6 x7 x8 x9 x10 x11 h3 h2 l h)) (gate_c x3 x4 x5 x6 x7 x8 x9 x10 x11 h3 h2 l h)

end Cert.Wts

end
-- ==== Proof.KernelValue.lean ====
/-
  The idealized kernel's result array, as one function of its argument arrays. What a grid point leaves in the
  output block is the mean, over a tree's nodes, of the second layer's cell of the first layer's cell of the node's
  embedding, with the gate matrices and biases as the host lines before the region fused them; a fused gate row
  `h · [Wi | Wo | Wc] + [bWi + bUi | bWo + bUo | bWc + bUc]` cut at columns 128 and 256 is the three gate rows
  `h · W + bW + bU` by associativity of the sum. Point `t` holds the trees `16 t … 16 t + 15`, and the sixteen output
  blocks tile the result, so the result array ends at the specification of the argument arrays.
-/
import proofs.«111409_j34626026341055_2_alg».proof.Proof.KernelRows
import proofs.«111409_j34626026341055_2_alg».proof.Proof.Blocks
import proofs.«111409_j34626026341055_2_alg».proof.Proof.Weights

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

/-- The body's found store is the mean of the scratch as the loops leave it, for any float instance. -/
theorem out5_eq {F : FTy → Type} [FloatOps F] (c : Dev nD) (i : grid0.Coords) (arg1 : Memref sig .tc .vmem S16x512x64 .f32) (harg1 : arg1.IsWhole) (arg2 : Memref sig .tc .vmem S64x128 .bf16) (harg2 : arg2.IsWhole) (arg3 : Memref sig .tc .vmem S128 .f32) (harg3 : arg3.IsWhole) (arg4 : Memref sig .tc .vmem S2x128x384 .bf16) (harg4 : arg4.IsWhole) (arg5 : Memref sig .tc .vmem S2x384 .f32) (harg5 : arg5.IsWhole) (arg6 : Memref sig .tc .vmem S16x128 .f32) (harg6 : arg6.IsWhole) (arg7 : Memref sig .tc .vmem S8192x128 .f32) (harg7 : arg7.IsWhole)
    (x0 : Vec F S16x512x64 .f32) (w0 : Vec F S64x128 .bf16) (b0 : Vec F S128 .f32) (wf : Vec F S2x128x384 .bf16) (bf : Vec F S2x384 .f32) :
    out0_5 c i arg1 harg1 arg2 harg2 arg3 harg3 arg4 harg4 arg5 harg5 arg6 harg6 arg7 harg7 x0 w0 b0 wf bf = k0_pay1 (k0_pay5 (scratchEnd x0 w0 b0 wf bf)) := by
  unfold out0_5
  have hp : (kernelRun c i arg1 harg1 arg2 harg2 arg3 harg3 arg4 harg4 arg5 harg5 arg6 harg6 arg7 harg7 x0 w0 b0 wf bf).1
      = [⟨Rect.unit (s := S16x128) ![0, 0] S16x128.size Facts₀.inb_S16x128_S16x128_0_0,
          k0_pay1 (k0_pay5 (kernelRun.sl.x c i arg1 harg1 arg2 harg2 arg3 harg3 arg4 harg4 arg5 harg5 arg6 harg6 arg7 harg7 x0 w0 b0 wf bf))⟩] := by
    unfold kernelRun; rfl
  have hc := cover5 c i arg1 harg1 arg2 harg2 arg3 harg3 arg4 harg4 arg5 harg5 arg6 harg6 arg7 harg7 x0 w0 b0 wf bf
  rw [hp] at hc ⊢
  rw [View.read_writes_eq_canon _ _ _ hc, View.canon_unit_zero hz2, scratch_final]

/-- A layer's cell over the slabs of the fused operands is the specification's layer. -/
theorem slab_layer0 (x3 x4 x5 : Vec Ideal S2x128x128 .f32) (x6 x7 x8 x9 x10 x11 : Vec Ideal S2x128 .f32)
    (h3 : Shape.Concatenates [S2x128x128, S2x128x128, S2x128x128] S2x128x384 2) (h2 : Shape.Concatenates [S2x128, S2x128, S2x128] S2x384 1) (h : Cert.Spec.Row) :
    slabCell (wSl0 (Cert.Wts.Wcat x3 x4 x5 h3)) (bSl0 (Cert.Wts.bcat x6 x7 x8 x9 x10 x11 h2)) h = Cert.Spec.layer x3 x4 x5 x6 x7 x8 x9 x10 x11 0 h := by
  unfold slabCell
  simp only [wSl0_apply, bSl0_apply]
  exact Cert.Wts.layer_bridge x3 x4 x5 x6 x7 x8 x9 x10 x11 h3 h2 0 h
theorem slab_layer1 (x3 x4 x5 : Vec Ideal S2x128x128 .f32) (x6 x7 x8 x9 x10 x11 : Vec Ideal S2x128 .f32)
    (h3 : Shape.Concatenates [S2x128x128, S2x128x128, S2x128x128] S2x128x384 2) (h2 : Shape.Concatenates [S2x128, S2x128, S2x128] S2x384 1) (h : Cert.Spec.Row) :
    slabCell (wSl1 (Cert.Wts.Wcat x3 x4 x5 h3)) (bSl1 (Cert.Wts.bcat x6 x7 x8 x9 x10 x11 h2)) h = Cert.Spec.layer x3 x4 x5 x6 x7 x8 x9 x10 x11 1 h := by
  unfold slabCell
  simp only [wSl1_apply, bSl1_apply]
  exact Cert.Wts.layer_bridge x3 x4 x5 x6 x7 x8 x9 x10 x11 h3 h2 1 h

variable (m : (ℓ : Loc nD τ sig) → Buf (Elt Ideal) ℓ) (ρ : Dev nD → PrngReg)

/-- The specification of core `c`'s argument arrays. -/
def Gm (c : Dev nD) : S256x128.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The fused operands as the region finds them. -/
theorem V_v2' (c : Dev nD) : (V m c main_v2 : S2x128x384.Idx → EReal)
    = Cert.Wts.Wcat (m ((c : Thread nD τ).loc main_arg3)) (m ((c : Thread nD τ).loc main_arg4)) (m ((c : Thread nD τ).loc main_arg5)) Facts₀.concatenates_S2x128x128_S2x128x128_S2x128x128_S2x128x384_d2 :=
  V_v2 m c
theorem V_v6' (c : Dev nD) : (V m c main_v6 : S2x384.Idx → EReal)
    = Cert.Wts.bcat (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) Facts₀.concatenates_S2x128_S2x128_S2x128_S2x384_d1 :=
  V_v6 m c

/-- What point `t` leaves in the output block at (tree `a`, column `j`) is the specification at tree `16 t + a`. -/
theorem after5_apply (c : Dev nD) (t : Fin cfg0.N) (a : Fin 16) (j : Fin 128) :
    (dats (F := Ideal) m 0 c).after 5 t (ix2 a j) = Gm m c (ix2 (⟨16 * t.val + a.val, by have := t.isLt; have hN : cfg0.N = 16 := N_0; omega⟩ : Fin 256) j) := by
  rw [after0_5, out5_eq, out_apply]
  unfold Gm Cert.Spec.G
  refine congrArg (fun s => Ideal.div s _) (Finset.sum_congr rfl fun n _ => ?_)
  unfold Cert.Spec.hidden
  rw [iblk1, iblk2, iblk3, iblk4, V_v0, V_v2', V_v6']
  simp only [iblk0_apply]
  rw [slab_layer1, slab_layer0]

/-- The result array after the run. -/
theorem final (c : Dev nD) : (dats (F := Ideal) m 0 c).arrAt 5 cfg0.N = Gm m c :=
  final5 m c (Gm m c) (after5_apply m c)

/-- The idealized kernel runs to the end with its result at the specification of its arguments, and the
    arguments unchanged. -/
theorem run_value : θ_run defs (onTc (τ := τ) (main (F := Ideal))) ⟨m, fun _ => 0, ρ⟩ (fun r => ∀ c : Dev nD,
      r.2.mem ((c.tc : Thread nD τ).loc main_v7) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.Hand

end
-- ==== Proof.RefG.lean ====
/-
  The reference program computes the specification function.

  Read one operation at a time, the reference is: the embedding `x · E + e` of every node; then, twice, the three gate
  rows `h · W + bW + bU` of the current hidden rows `h` (the matrix `W` and the bias rows `bW`, `bU` are layer
  `l`'s slices of the stacked arguments, re-laid as a 128 × 128 matrix and as rows repeated over all trees and nodes),
  the logistic function of the input and output gates spelled `1 / (1 + exp (-z))`, and the new hidden rows
  `σ(o) · tanh (σ(i) · tanh c)`; last the sum over a tree's 512 nodes, started from zero, divided by the float 512.

  Each stage is identified, at an index given by its coordinates, with the corresponding piece of the specification:
  the layout stages with `matOf` / `biasOf`, the gate sums with `gateRow`, a layer's result with `cellOf` of its
  three gate rows, hence with `layer`, the two layers over the embedding with `hidden`, and the mean with `G`.
-/
import proofs.«111409_j34626026341055_2_alg».proof.Proof.Gen.ReferenceIdeal.Read
import proofs.«111409_j34626026341055_2_alg».proof.Proof.Spec
import Idealize.ShloMosaic.PureOps.Ideal.Laws
import Idealize.ShloMosaic.Lib.ValueIdx
import Idealize.ShloMosaic.Lib.IdealHost

noncomputable section

namespace Cert.RefG

open Cert.ReferenceIdeal Cert.ReferenceIdeal.Read Idealize.ShloMosaic Idealize.ShloMosaic.ValueIdx

/-! ## The constant one and the logistic function -/

/-- The float word `0x3F800000` denotes one. -/
theorem one_f32 : Ideal.ofBits .f32 0x3F800000#32 = 1 := Ideal.ofBits_one_f32

/-- `1 / (1 + exp (-x))` is the logistic function. -/
theorem sigmoid_eq (x : EReal) : Ideal.div 1 (1 + Ideal.exp (-x)) = Ideal.logistic x := rfl

/-! ## Layout stages: a layer's bias rows and matrices

  A bias argument `y` of shape 2 × 128 is sliced at row `l`, flattened to 128 entries and repeated along the tree and
  node axes: at `(b, n, j)` the result is `y (l, j)`. A matrix argument `W` of shape 2 × 128 × 128 is sliced at `l`
  and flattened to 128 × 128: at `(k, j)` the result is `W (l, k, j)`, since `(k · 128 + j) / 128 % 128 = k` and
  `(k · 128 + j) % 128 = j` for `k, j < 128`. A contraction over the last axis of the hidden rows reads its left
  operand at `(b, n, k)` and its right operand at `(k, j)`. -/

section Layout

variable (y : (⟨S2x128, .f32⟩ : BufTy).Contents (Elt Ideal)) (W : (⟨S2x128x128, .f32⟩ : BufTy).Contents (Elt Ideal))
  (b : Fin 256) (n : Fin 512) (j k : Fin 128)

/-! Layer 0's bias rows. -/

theorem bias_v10 : val_main_v10 (F := Ideal) y (ix3 b n j) = Cert.Spec.biasOf y 0 j := by
  rw [val_main_v10_apply, val_main_v9_apply, val_main_v8_apply, val_main_v7_apply]
  exact congrArg y (funext fun a => Fin.ext (by
    match a with
    | ⟨0, _⟩ => rfl
    | ⟨1, _⟩ => exact Nat.mod_eq_of_lt j.isLt))

theorem bias_v15 : val_main_v15 (F := Ideal) y (ix3 b n j) = Cert.Spec.biasOf y 0 j := by
  rw [val_main_v15_apply, val_main_v14_apply, val_main_v13_apply, val_main_v12_apply]
  exact congrArg y (funext fun a => Fin.ext (by
    match a with
    | ⟨0, _⟩ => rfl
    | ⟨1, _⟩ => exact Nat.mod_eq_of_lt j.isLt))

theorem bias_v29 : val_main_v29 (F := Ideal) y (ix3 b n j) = Cert.Spec.biasOf y 0 j := by
  rw [val_main_v29_apply, val_main_v28_apply, val_main_v27_apply, val_main_v26_apply]
  exact congrArg y (funext fun a => Fin.ext (by
    match a with
    | ⟨0, _⟩ => rfl
    | ⟨1, _⟩ => exact Nat.mod_eq_of_lt j.isLt))

theorem bias_v34 : val_main_v34 (F := Ideal) y (ix3 b n j) = Cert.Spec.biasOf y 0 j := by
  rw [val_main_v34_apply, val_main_v33_apply, val_main_v32_apply, val_main_v31_apply]
  exact congrArg y (funext fun a => Fin.ext (by
    match a with
    | ⟨0, _⟩ => rfl
    | ⟨1, _⟩ => exact Nat.mod_eq_of_lt j.isLt))

theorem bias_v48 : val_main_v48 (F := Ideal) y (ix3 b n j) = Cert.Spec.biasOf y 0 j := by
  rw [val_main_v48_apply, val_main_v47_apply, val_main_v46_apply, val_main_v45_apply]
  exact congrArg y (funext fun a => Fin.ext (by
    match a with
    | ⟨0, _⟩ => rfl
    | ⟨1, _⟩ => exact Nat.mod_eq_of_lt j.isLt))

theorem bias_v53 : val_main_v53 (F := Ideal) y (ix3 b n j) = Cert.Spec.biasOf y 0 j := by
  rw [val_main_v53_apply, val_main_v52_apply, val_main_v51_apply, val_main_v50_apply]
  exact congrArg y (funext fun a => Fin.ext (by
    match a with
    | ⟨0, _⟩ => rfl
    | ⟨1, _⟩ => exact Nat.mod_eq_of_lt j.isLt))

/-! Layer 1's bias rows. -/

theorem bias_v65 : val_main_v65 (F := Ideal) y (ix3 b n j) = Cert.Spec.biasOf y 1 j := by
  rw [val_main_v65_apply, val_main_v64_apply, val_main_v63_apply, val_main_v62_apply]
  exact congrArg y (funext fun a => Fin.ext (by
    match a with
    | ⟨0, _⟩ => rfl
    | ⟨1, _⟩ => exact Nat.mod_eq_of_lt j.isLt))

theorem bias_v70 : val_main_v70 (F := Ideal) y (ix3 b n j) = Cert.Spec.biasOf y 1 j := by
  rw [val_main_v70_apply, val_main_v69_apply, val_main_v68_apply, val_main_v67_apply]
  exact congrArg y (funext fun a => Fin.ext (by
    match a with
    | ⟨0, _⟩ => rfl
    | ⟨1, _⟩ => exact Nat.mod_eq_of_lt j.isLt))

theorem bias_v84 : val_main_v84 (F := Ideal) y (ix3 b n j) = Cert.Spec.biasOf y 1 j := by
  rw [val_main_v84_apply, val_main_v83_apply, val_main_v82_apply, val_main_v81_apply]
  exact congrArg y (funext fun a => Fin.ext (by
    match a with
    | ⟨0, _⟩ => rfl
    | ⟨1, _⟩ => exact Nat.mod_eq_of_lt j.isLt))

theorem bias_v89 : val_main_v89 (F := Ideal) y (ix3 b n j) = Cert.Spec.biasOf y 1 j := by
  rw [val_main_v89_apply, val_main_v88_apply, val_main_v87_apply, val_main_v86_apply]
  exact congrArg y (funext fun a => Fin.ext (by
    match a with
    | ⟨0, _⟩ => rfl
    | ⟨1, _⟩ => exact Nat.mod_eq_of_lt j.isLt))

theorem bias_v103 : val_main_v103 (F := Ideal) y (ix3 b n j) = Cert.Spec.biasOf y 1 j := by
  rw [val_main_v103_apply, val_main_v102_apply, val_main_v101_apply, val_main_v100_apply]
  exact congrArg y (funext fun a => Fin.ext (by
    match a with
    | ⟨0, _⟩ => rfl
    | ⟨1, _⟩ => exact Nat.mod_eq_of_lt j.isLt))

theorem bias_v108 : val_main_v108 (F := Ideal) y (ix3 b n j) = Cert.Spec.biasOf y 1 j := by
  rw [val_main_v108_apply, val_main_v107_apply, val_main_v106_apply, val_main_v105_apply]
  exact congrArg y (funext fun a => Fin.ext (by
    match a with
    | ⟨0, _⟩ => rfl
    | ⟨1, _⟩ => exact Nat.mod_eq_of_lt j.isLt))

/-! Layer 0's matrices. -/

theorem mat_v5 : val_main_v5 (F := Ideal) W (ix2 k j) = Cert.Spec.matOf W 0 k j := by
  rw [val_main_v5_apply, val_main_v4_apply]
  have hk : k.val < 128 := k.isLt
  have hj : j.val < 128 := j.isLt
  exact congrArg W (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem mat_v24 : val_main_v24 (F := Ideal) W (ix2 k j) = Cert.Spec.matOf W 0 k j := by
  rw [val_main_v24_apply, val_main_v23_apply]
  have hk : k.val < 128 := k.isLt
  have hj : j.val < 128 := j.isLt
  exact congrArg W (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem mat_v43 : val_main_v43 (F := Ideal) W (ix2 k j) = Cert.Spec.matOf W 0 k j := by
  rw [val_main_v43_apply, val_main_v42_apply]
  have hk : k.val < 128 := k.isLt
  have hj : j.val < 128 := j.isLt
  exact congrArg W (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-! Layer 1's matrices. -/

theorem mat_v60 : val_main_v60 (F := Ideal) W (ix2 k j) = Cert.Spec.matOf W 1 k j := by
  rw [val_main_v60_apply, val_main_v59_apply]
  have hk : k.val < 128 := k.isLt
  have hj : j.val < 128 := j.isLt
  exact congrArg W (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem mat_v79 : val_main_v79 (F := Ideal) W (ix2 k j) = Cert.Spec.matOf W 1 k j := by
  rw [val_main_v79_apply, val_main_v78_apply]
  have hk : k.val < 128 := k.isLt
  have hj : j.val < 128 := j.isLt
  exact congrArg W (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem mat_v98 : val_main_v98 (F := Ideal) W (ix2 k j) = Cert.Spec.matOf W 1 k j := by
  rw [val_main_v98_apply, val_main_v97_apply]
  have hk : k.val < 128 := k.isLt
  have hj : j.val < 128 := j.isLt
  exact congrArg W (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-! The operands' indices of the six contractions. -/

theorem lidx_v6 : lidx_main_v6 (ix3 b n j) k = ix3 b n k := funext fun a => Fin.ext (by
  match a with
  | ⟨0, _⟩ => rfl
  | ⟨1, _⟩ => rfl
  | ⟨2, _⟩ => rfl)
theorem ridx_v6 : ridx_main_v6 (ix3 b n j) k = ix2 k j := funext fun a => Fin.ext (by
  match a with
  | ⟨0, _⟩ => rfl
  | ⟨1, _⟩ => rfl)

theorem lidx_v25 : lidx_main_v25 (ix3 b n j) k = ix3 b n k := funext fun a => Fin.ext (by
  match a with
  | ⟨0, _⟩ => rfl
  | ⟨1, _⟩ => rfl
  | ⟨2, _⟩ => rfl)
theorem ridx_v25 : ridx_main_v25 (ix3 b n j) k = ix2 k j := funext fun a => Fin.ext (by
  match a with
  | ⟨0, _⟩ => rfl
  | ⟨1, _⟩ => rfl)

theorem lidx_v44 : lidx_main_v44 (ix3 b n j) k = ix3 b n k := funext fun a => Fin.ext (by
  match a with
  | ⟨0, _⟩ => rfl
  | ⟨1, _⟩ => rfl
  | ⟨2, _⟩ => rfl)
theorem ridx_v44 : ridx_main_v44 (ix3 b n j) k = ix2 k j := funext fun a => Fin.ext (by
  match a with
  | ⟨0, _⟩ => rfl
  | ⟨1, _⟩ => rfl)

theorem lidx_v61 : lidx_main_v61 (ix3 b n j) k = ix3 b n k := funext fun a => Fin.ext (by
  match a with
  | ⟨0, _⟩ => rfl
  | ⟨1, _⟩ => rfl
  | ⟨2, _⟩ => rfl)
theorem ridx_v61 : ridx_main_v61 (ix3 b n j) k = ix2 k j := funext fun a => Fin.ext (by
  match a with
  | ⟨0, _⟩ => rfl
  | ⟨1, _⟩ => rfl)

theorem lidx_v80 : lidx_main_v80 (ix3 b n j) k = ix3 b n k := funext fun a => Fin.ext (by
  match a with
  | ⟨0, _⟩ => rfl
  | ⟨1, _⟩ => rfl
  | ⟨2, _⟩ => rfl)
theorem ridx_v80 : ridx_main_v80 (ix3 b n j) k = ix2 k j := funext fun a => Fin.ext (by
  match a with
  | ⟨0, _⟩ => rfl
  | ⟨1, _⟩ => rfl)

theorem lidx_v99 : lidx_main_v99 (ix3 b n j) k = ix3 b n k := funext fun a => Fin.ext (by
  match a with
  | ⟨0, _⟩ => rfl
  | ⟨1, _⟩ => rfl
  | ⟨2, _⟩ => rfl)
theorem ridx_v99 : ridx_main_v99 (ix3 b n j) k = ix2 k j := funext fun a => Fin.ext (by
  match a with
  | ⟨0, _⟩ => rfl
  | ⟨1, _⟩ => rfl)

end Layout

/-! ## The stages at an index -/

section Stages

variable (x0 : (⟨S256x512x64, .f32⟩ : BufTy).Contents (Elt Ideal)) (x1 : (⟨S64x128, .f32⟩ : BufTy).Contents (Elt Ideal))
  (x2 : (⟨S128, .f32⟩ : BufTy).Contents (Elt Ideal)) (x3 x4 x5 : (⟨S2x128x128, .f32⟩ : BufTy).Contents (Elt Ideal))
  (x6 x7 x8 x9 x10 x11 : (⟨S2x128, .f32⟩ : BufTy).Contents (Elt Ideal))
  (b : Fin 256) (n : Fin 512) (j : Fin 128)

/-- The embedding: at `(b, n, j)` the sum over the 64 features `f` of `x (b, n, f) · E (f, j)`, plus `e j` (the bias
row repeated over trees and nodes). -/
theorem emb_at :
    val_main_v3 (F := Ideal) x0 x1 x2 (ix3 b n j)
      = Cert.Spec.embRow (fun f => x0 (ix3 b n f)) (fun f j => x1 (ix2 f j)) (fun j => x2 (ix1 j)) j := by
  rw [val_main_v3_apply, val_main_v0_apply, val_main_v2_apply, val_main_v1_apply]
  simp only [Ideal.addf_def]
  unfold Cert.Spec.embRow
  refine congrArg₂ (· + ·) (Finset.sum_congr rfl fun f _ => ?_) (congrArg x2 ?_)
  · refine congrArg₂ (· * ·) (congrArg x0 ?_) (congrArg x1 ?_)
    · exact funext fun a => Fin.ext (by
        match a with
        | ⟨0, _⟩ => rfl
        | ⟨1, _⟩ => rfl
        | ⟨2, _⟩ => rfl)
    · exact funext fun a => Fin.ext (by
        match a with
        | ⟨0, _⟩ => rfl
        | ⟨1, _⟩ => rfl)
  · exact funext fun a => Fin.ext (by
      match a with
      | ⟨0, _⟩ => rfl)

/-! ### Layer 0

  Each gate row of node `(b, n)` is, at `j`, the sum over `k` of the embedding at `(b, n, k)` times the gate's
  matrix at `(k, j)`, plus the gate's two biases at `j`, added one after the other. -/

theorem gate_v16 :
    (fun j => val_main_v16 (F := Ideal) x0 x1 x2 x3 x6 x7 (ix3 b n j))
      = Cert.Spec.gateRow (fun k => val_main_v3 (F := Ideal) x0 x1 x2 (ix3 b n k)) (Cert.Spec.matOf x3 0)
          (Cert.Spec.biasOf x6 0) (Cert.Spec.biasOf x7 0) := by
  funext j
  rw [val_main_v16_apply, val_main_v11_apply, val_main_v6_apply, bias_v10, bias_v15]
  simp only [Ideal.addf_def]
  unfold Cert.Spec.gateRow
  refine congrArg₂ (· + ·) (congrArg₂ (· + ·) (Finset.sum_congr rfl fun k _ => ?_) rfl) rfl
  rw [lidx_v6, ridx_v6, mat_v5]

theorem gate_v35 :
    (fun j => val_main_v35 (F := Ideal) x0 x1 x2 x4 x8 x9 (ix3 b n j))
      = Cert.Spec.gateRow (fun k => val_main_v3 (F := Ideal) x0 x1 x2 (ix3 b n k)) (Cert.Spec.matOf x4 0)
          (Cert.Spec.biasOf x8 0) (Cert.Spec.biasOf x9 0) := by
  funext j
  rw [val_main_v35_apply, val_main_v30_apply, val_main_v25_apply, bias_v29, bias_v34]
  simp only [Ideal.addf_def]
  unfold Cert.Spec.gateRow
  refine congrArg₂ (· + ·) (congrArg₂ (· + ·) (Finset.sum_congr rfl fun k _ => ?_) rfl) rfl
  rw [lidx_v25, ridx_v25, mat_v24]

theorem gate_v54 :
    (fun j => val_main_v54 (F := Ideal) x0 x1 x2 x5 x10 x11 (ix3 b n j))
      = Cert.Spec.gateRow (fun k => val_main_v3 (F := Ideal) x0 x1 x2 (ix3 b n k)) (Cert.Spec.matOf x5 0)
          (Cert.Spec.biasOf x10 0) (Cert.Spec.biasOf x11 0) := by
  funext j
  rw [val_main_v54_apply, val_main_v49_apply, val_main_v44_apply, bias_v48, bias_v53]
  simp only [Ideal.addf_def]
  unfold Cert.Spec.gateRow
  refine congrArg₂ (· + ·) (congrArg₂ (· + ·) (Finset.sum_congr rfl fun k _ => ?_) rfl) rfl
  rw [lidx_v44, ridx_v44, mat_v43]

/-! The input and output gates' activation, `1 / (1 + exp (-z))` with both ones the float word of one, is the logistic
function of the gate row. -/

theorem sig_v22 (i : S256x512x128.Idx) :
    val_main_v22 (F := Ideal) x0 x1 x2 x3 x6 x7 i = Ideal.logistic (val_main_v16 (F := Ideal) x0 x1 x2 x3 x6 x7 i) := by
  rw [val_main_v22_apply, val_main_v21_apply, val_main_cst_0_apply, val_main_v20_apply, val_main_v19_apply,
    val_main_cst_apply, val_main_v18_apply, val_main_v17_apply]
  simp only [Ideal.hostDivf_def, Ideal.addf_def, Ideal.hostUnary_exp_def, Ideal.hostNegf_def, Ideal.negf_def,
    Ideal.ofBits_def, one_f32]
  rfl

theorem sig_v41 (i : S256x512x128.Idx) :
    val_main_v41 (F := Ideal) x0 x1 x2 x4 x8 x9 i = Ideal.logistic (val_main_v35 (F := Ideal) x0 x1 x2 x4 x8 x9 i) := by
  rw [val_main_v41_apply, val_main_v40_apply, val_main_cst_2_apply, val_main_v39_apply, val_main_v38_apply,
    val_main_cst_1_apply, val_main_v37_apply, val_main_v36_apply]
  simp only [Ideal.hostDivf_def, Ideal.addf_def, Ideal.hostUnary_exp_def, Ideal.hostNegf_def, Ideal.negf_def,
    Ideal.ofBits_def, one_f32]
  rfl

/-- Layer 0's result at `(b, n, j)` is `σ(o) · tanh (σ(i) · tanh c)` of its three gate rows at `j`. -/
theorem cell_v58 :
    val_main_v58 (F := Ideal) x0 x1 x2 x3 x4 x5 x6 x7 x8 x9 x10 x11 (ix3 b n j)
      = Cert.Spec.cellOf (fun j => val_main_v16 (F := Ideal) x0 x1 x2 x3 x6 x7 (ix3 b n j))
          (fun j => val_main_v35 (F := Ideal) x0 x1 x2 x4 x8 x9 (ix3 b n j))
          (fun j => val_main_v54 (F := Ideal) x0 x1 x2 x5 x10 x11 (ix3 b n j)) j := by
  rw [val_main_v58_apply, val_main_v57_apply, val_main_v56_apply, val_main_v55_apply, sig_v41, sig_v22]
  simp only [Ideal.mulf_def, Ideal.hostUnary_tanh_def]
  rfl

/-- Node `n` of tree `b` after layer 0: the specification's layer 0 on the node's embedding. -/
theorem layer0_at :
    (fun j => val_main_v58 (F := Ideal) x0 x1 x2 x3 x4 x5 x6 x7 x8 x9 x10 x11 (ix3 b n j))
      = Cert.Spec.layer x3 x4 x5 x6 x7 x8 x9 x10 x11 0
          (Cert.Spec.embRow (fun f => x0 (ix3 b n f)) (fun f j => x1 (ix2 f j)) (fun j => x2 (ix1 j))) := by
  have he : (fun k => val_main_v3 (F := Ideal) x0 x1 x2 (ix3 b n k))
      = Cert.Spec.embRow (fun f => x0 (ix3 b n f)) (fun f j => x1 (ix2 f j)) (fun j => x2 (ix1 j)) :=
    funext fun k => emb_at x0 x1 x2 b n k
  funext j
  rw [cell_v58, gate_v16, gate_v35, gate_v54, he]
  rfl

/-! ### Layer 1

  The same three gate rows, of layer 0's result, with the second slices of the matrices and biases. -/

theorem gate_v71 :
    (fun j => val_main_v71 (F := Ideal) x0 x1 x2 x3 x4 x5 x6 x7 x8 x9 x10 x11 (ix3 b n j))
      = Cert.Spec.gateRow (fun k => val_main_v58 (F := Ideal) x0 x1 x2 x3 x4 x5 x6 x7 x8 x9 x10 x11 (ix3 b n k)) (Cert.Spec.matOf x3 1)
          (Cert.Spec.biasOf x6 1) (Cert.Spec.biasOf x7 1) := by
  funext j
  rw [val_main_v71_apply, val_main_v66_apply, val_main_v61_apply, bias_v65, bias_v70]
  simp only [Ideal.addf_def]
  unfold Cert.Spec.gateRow
  refine congrArg₂ (· + ·) (congrArg₂ (· + ·) (Finset.sum_congr rfl fun k _ => ?_) rfl) rfl
  rw [lidx_v61, ridx_v61, mat_v60]

theorem gate_v90 :
    (fun j => val_main_v90 (F := Ideal) x0 x1 x2 x3 x4 x5 x6 x7 x8 x9 x10 x11 (ix3 b n j))
      = Cert.Spec.gateRow (fun k => val_main_v58 (F := Ideal) x0 x1 x2 x3 x4 x5 x6 x7 x8 x9 x10 x11 (ix3 b n k)) (Cert.Spec.matOf x4 1)
          (Cert.Spec.biasOf x8 1) (Cert.Spec.biasOf x9 1) := by
  funext j
  rw [val_main_v90_apply, val_main_v85_apply, val_main_v80_apply, bias_v84, bias_v89]
  simp only [Ideal.addf_def]
  unfold Cert.Spec.gateRow
  refine congrArg₂ (· + ·) (congrArg₂ (· + ·) (Finset.sum_congr rfl fun k _ => ?_) rfl) rfl
  rw [lidx_v80, ridx_v80, mat_v79]

theorem gate_v109 :
    (fun j => val_main_v109 (F := Ideal) x0 x1 x2 x3 x4 x5 x6 x7 x8 x9 x10 x11 (ix3 b n j))
      = Cert.Spec.gateRow (fun k => val_main_v58 (F := Ideal) x0 x1 x2 x3 x4 x5 x6 x7 x8 x9 x10 x11 (ix3 b n k)) (Cert.Spec.matOf x5 1)
          (Cert.Spec.biasOf x10 1) (Cert.Spec.biasOf x11 1) := by
  funext j
  rw [val_main_v109_apply, val_main_v104_apply, val_main_v99_apply, bias_v103, bias_v108]
  simp only [Ideal.addf_def]
  unfold Cert.Spec.gateRow
  refine congrArg₂ (· + ·) (congrArg₂ (· + ·) (Finset.sum_congr rfl fun k _ => ?_) rfl) rfl
  rw [lidx_v99, ridx_v99, mat_v98]

theorem sig_v77 (i : S256x512x128.Idx) :
    val_main_v77 (F := Ideal) x0 x1 x2 x3 x4 x5 x6 x7 x8 x9 x10 x11 i = Ideal.logistic (val_main_v71 (F := Ideal) x0 x1 x2 x3 x4 x5 x6 x7 x8 x9 x10 x11 i) := by
  rw [val_main_v77_apply, val_main_v76_apply, val_main_cst_4_apply, val_main_v75_apply, val_main_v74_apply,
    val_main_cst_3_apply, val_main_v73_apply, val_main_v72_apply]
  simp only [Ideal.hostDivf_def, Ideal.addf_def, Ideal.hostUnary_exp_def, Ideal.hostNegf_def, Ideal.negf_def,
    Ideal.ofBits_def, one_f32]
  rfl

theorem sig_v96 (i : S256x512x128.Idx) :
    val_main_v96 (F := Ideal) x0 x1 x2 x3 x4 x5 x6 x7 x8 x9 x10 x11 i = Ideal.logistic (val_main_v90 (F := Ideal) x0 x1 x2 x3 x4 x5 x6 x7 x8 x9 x10 x11 i) := by
  rw [val_main_v96_apply, val_main_v95_apply, val_main_cst_6_apply, val_main_v94_apply, val_main_v93_apply,
    val_main_cst_5_apply, val_main_v92_apply, val_main_v91_apply]
  simp only [Ideal.hostDivf_def, Ideal.addf_def, Ideal.hostUnary_exp_def, Ideal.hostNegf_def, Ideal.negf_def,
    Ideal.ofBits_def, one_f32]
  rfl

/-- Layer 1's result at `(b, n, j)` is `σ(o) · tanh (σ(i) · tanh c)` of its three gate rows at `j`. -/
theorem cell_v113 :
    val_main_v113 (F := Ideal) x0 x1 x2 x3 x4 x5 x6 x7 x8 x9 x10 x11 (ix3 b n j)
      = Cert.Spec.cellOf (fun j => val_main_v71 (F := Ideal) x0 x1 x2 x3 x4 x5 x6 x7 x8 x9 x10 x11 (ix3 b n j))
          (fun j => val_main_v90 (F := Ideal) x0 x1 x2 x3 x4 x5 x6 x7 x8 x9 x10 x11 (ix3 b n j))
          (fun j => val_main_v109 (F := Ideal) x0 x1 x2 x3 x4 x5 x6 x7 x8 x9 x10 x11 (ix3 b n j)) j := by
  rw [val_main_v113_apply, val_main_v112_apply, val_main_v111_apply, val_main_v110_apply, sig_v96, sig_v77]
  simp only [Ideal.mulf_def, Ideal.hostUnary_tanh_def]
  rfl

/-- Node `n` of tree `b` after layer 1: the specification's layer 1 on the node's row after layer 0. -/
theorem layer1_at :
    (fun j => val_main_v113 (F := Ideal) x0 x1 x2 x3 x4 x5 x6 x7 x8 x9 x10 x11 (ix3 b n j))
      = Cert.Spec.layer x3 x4 x5 x6 x7 x8 x9 x10 x11 1
          (fun k => val_main_v58 (F := Ideal) x0 x1 x2 x3 x4 x5 x6 x7 x8 x9 x10 x11 (ix3 b n k)) := by
  funext j
  rw [cell_v113, gate_v71, gate_v90, gate_v109]
  rfl

/-- After both layers the reference holds the specification's hidden row of node `n` of tree `b`. -/
theorem hidden_at :
    val_main_v113 (F := Ideal) x0 x1 x2 x3 x4 x5 x6 x7 x8 x9 x10 x11 (ix3 b n j)
      = Cert.Spec.hidden x0 x1 x2 x3 x4 x5 x6 x7 x8 x9 x10 x11 b n j := by
  have h := congrFun (layer1_at x0 x1 x2 x3 x4 x5 x6 x7 x8 x9 x10 x11 b n) j
  rw [layer0_at] at h
  exact h

/-! ### The mean over nodes -/

/-- The result at `(b, j)`: zero plus the sum over the 512 nodes `n` of the hidden row of `(b, n)` at `j`, divided
by the float 512. -/
theorem ref_eq :
    val_main_v116 (F := Ideal) x0 x1 x2 x3 x4 x5 x6 x7 x8 x9 x10 x11 = Cert.Spec.G x0 x1 x2 x3 x4 x5 x6 x7 x8 x9 x10 x11 := by
  funext i
  rw [val_main_v116_apply, val_main_v115_apply, val_main_cst_8_apply, val_main_v114_apply, val_main_cst_7_apply]
  simp only [Ideal.hostDivf_def, Ideal.ofBits_def, Ideal.ofBits_zero_f32, zero_add]
  unfold Cert.Spec.G
  refine congrArg (fun s => Ideal.div s (Ideal.ofBits .f32 0x44000000#32)) (Finset.sum_congr rfl fun m _ => ?_)
  have em : idx_main_v114 i m = ix3 (i 0) m (i 1) := funext fun a => Fin.ext (by
    match a with
    | ⟨0, _⟩ => rfl
    | ⟨1, _⟩ => rfl
    | ⟨2, _⟩ => rfl)
  rw [em]
  exact hidden_at x0 x1 x2 x3 x4 x5 x6 x7 x8 x9 x10 x11 (i 0) m (i 1)

end Stages

end Cert.RefG

end
-- ==== Proof.lean ====
/-
  The certificate of a child-free two-layer TreeLSTM encoder: a kernel that embeds a tile of sixteen trees' nodes
  into a row scratch, applies each layer's fused gate product band by band in place and averages each tree's rows,
  against the plain reference that embeds all nodes, applies each layer's three gate products and averages.
  Over the extended reals the two compute one function (`Cert.Spec.G`): the fused gate row
  `h · [Wi | Wo | Wc] + [bWi + bUi | bWo + bUo | bWc + bUc]`, cut at columns 128 and 256, is the three rows
  `h · W + bW + bU` by associativity of the sum, the logistic function is `1 / (1 + e^(-x))` on both sides, the
  casts to the narrow float format are the identity, and the tiling of trees over grid points and of rows over
  bands changes nothing. The three programs run to the end and leave their arguments unchanged; the ideal pass
  rewrote nothing, so the kernel's idealization is its own text.
-/
import proofs.«111409_j34626026341055_2_alg».proof.Defs
import proofs.«111409_j34626026341055_2_alg».proof.Proof.Gen.Kernel
import proofs.«111409_j34626026341055_2_alg».proof.Proof.Gen.KernelIdeal
import proofs.«111409_j34626026341055_2_alg».proof.Proof.Gen.ReferenceIdeal
import proofs.«111409_j34626026341055_2_alg».proof.Proof.Gen.Pre_finite_inputs
import proofs.«111409_j34626026341055_2_alg».proof.Proof.Gen.ReferenceIdeal.Run
import proofs.«111409_j34626026341055_2_alg».proof.Proof.Gen.ReferenceIdeal.Read
import proofs.«111409_j34626026341055_2_alg».proof.Proof.BitsBody
import proofs.«111409_j34626026341055_2_alg».proof.Proof.KernelValue
import proofs.«111409_j34626026341055_2_alg».proof.Proof.RefG
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with their result at the specification of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v116_eq, Cert.RefG.ref_eq]
  obtain ⟨e0, e1, e2, e3, e4, e5, e6, e7, e8, e9, e10, e11⟩ := hagree c
  rw [e0, e1, e2, e3, e4, e5, e6, e7, e8, e9, e10, e11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
